-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S12x4096x16 : Shape := ⟨3, ![12, 4096, 16]⟩
abbrev S_ : Shape := ⟨0, ![]⟩

class Facts : Prop where
  bcast_S_S12x4096x16 : S_.BroadcastsInDim S12x4096x16 (![] : Fin 0 → Fin S12x4096x16.rank)
  reducesTo_S12x4096x16_S_d0_1_2 : S12x4096x16.ReducesTo [0, 1, 2] S_
  h_S_ : 0 < S_.numel

variable [Facts]

def fn {F : FTy → Type} [FloatOps F] (main_arg0 : FVec F S12x4096x16 .f32) : IVec S_ 1 :=
  let main_v0 : FVec F S12x4096x16 .f32 := Host.absf main_arg0
  let main_cst : FVec F S_ .f32 := constant S_ .f32 0x7F800000#32
  let main_v1 : FVec F S12x4096x16 .f32 := broadcastInDim S12x4096x16 ![] bcast_S_S12x4096x16 main_cst
  let main_v2 : IVec S12x4096x16 1 := cmpf .olt main_v0 main_v1
  let main_c : IVec S_ 1 := constantI S_ 1 1#1
  let main_v3 : IVec S_ 1 := (fun x v => Host.reduce IntOp.andi x v reducesTo_S12x4096x16_S_d0_1_2 h_S_) main_v2 main_c
  main_v3
-- ==== Kernel.lean ====
abbrev S12x4096x16 : Shape := ⟨3, ![12, 4096, 16]⟩
abbrev S12x16x4096 : Shape := ⟨3, ![12, 16, 4096]⟩
abbrev S1x1 : Shape := ⟨2, ![1, 1]⟩
abbrev S12x16x2048 : Shape := ⟨3, ![12, 16, 2048]⟩
abbrev S12x16 : Shape := ⟨2, ![12, 16]⟩
abbrev S12x1 : Shape := ⟨2, ![12, 1]⟩
abbrev S12x2048 : Shape := ⟨2, ![12, 2048]⟩
abbrev S12x1x2048 : Shape := ⟨3, ![12, 1, 2048]⟩
abbrev S12 : Shape := ⟨1, ![12]⟩
abbrev S1 : Shape := ⟨1, ![1]⟩
abbrev S_ : Shape := ⟨0, ![]⟩

abbrev nBuf : Space → Nat
  | .hbm => 15
  | .vmem => 7
  | .smem => 0
  | _ => 0

abbrev bufTy : (tb : Table) → Fin (tcTables nBuf tb) → BufTy
  | .hbm, ⟨0, _⟩ => ⟨S12x4096x16, .f32⟩
  | .hbm, ⟨1, _⟩ => ⟨S12x16x4096, .f32⟩
  | .hbm, ⟨2, _⟩ => ⟨S1x1, .f32⟩
  | .hbm, ⟨3, _⟩ => ⟨S1x1, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .local _ .vmem, ⟨0, _⟩ => ⟨S12x16x2048, .f32⟩
  | .local _ .vmem, ⟨1, _⟩ => ⟨S12x16x2048, .f32⟩
  | .local _ .vmem, ⟨2, _⟩ => ⟨S1x1, .f32⟩
  | .local _ .vmem, ⟨3, _⟩ => ⟨S1x1, .f32⟩
  | .local _ .vmem, ⟨4, _⟩ => ⟨S12x16, .f32⟩
  | .local _ .vmem, ⟨5, _⟩ => ⟨S12x16, .f32⟩
  | .local _ .vmem, ⟨6, _⟩ => ⟨S12x1, .f32⟩
  | _, _ => ⟨S12x4096x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3

abbrev nD : Nat := 1
abbrev τ : Topo := Topo.v7x

variable {F : FTy → Type} [FloatOps F]

abbrev grid0 : Pipeline.Grid := ⟨1, ![2], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v40 : BitVec 1 := Scalar.cmpi .eq arg0 c1_i32
  let v41 : BitVec 32 := Scalar.extui v40
  let c0_i32_22 : BitVec 32 := 0#32
  let v42 : BitVec 1 := Scalar.cmpi .ne v41 c0_i32_22
  v42

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S12x16x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  transposes_S12x4096x16_S12x16x4096_0_2_1 : S12x4096x16.Transposes [0, 2, 1] S12x16x4096
  inb_S12x16_S12x16_0_0 : ∀ a, (![0, 0] : Fin 2 → Nat) a + S12x16.size a ≤ S12x16.size a
  h_S12x16 : 0 < S12x16.numel
  shapeCasts_S12x16_S12x16 : S12x16.ShapeCasts S12x16
  inb_S12x1_S12x1_0_0 : ∀ a, (![0, 0] : Fin 2 → Nat) a + S12x1.size a ≤ S12x1.size a
  h_S12x1 : 0 < S12x1.numel
  shapeCasts_S12x1_S12x1 : S12x1.ShapeCasts S12x1
  inb_S1x1_S1x1_0_0 : ∀ a, (![0, 0] : Fin 2 → Nat) a + S1x1.size a ≤ S1x1.size a
  h_S1x1 : 0 < S1x1.numel
  inb_S12x16x2048_S12x16x2048_0_0_0 : ∀ a, (![0, 0, 0] : Fin 3 → Nat) a + S12x16x2048.size a ≤ S12x16x2048.size a
  h_S12x16x2048 : 0 < S12x16x2048.numel
  shapeCasts_S12x16x2048_S12x16x2048 : S12x16x2048.ShapeCasts S12x16x2048
  reduces_S12x16x2048_S12x2048 : S12x16x2048.Reduces [1] S12x2048
  shapeCasts_S12x2048_S12x1x2048 : S12x2048.ShapeCasts S12x1x2048
  broadcasts_S12x1x2048_S12x16x2048 : S12x1x2048.Broadcasts S12x16x2048
  reduces_S12x16x2048_S12x16 : S12x16x2048.Reduces [2] S12x16
  reduces_S12x2048_S12 : S12x2048.Reduces [1] S12
  shapeCasts_S12_S12x1 : S12.ShapeCasts S12x1
  reduces_S12x16_S12 : S12x16.Reduces [1] S12
  reduces_S12x1_S1 : S12x1.Reduces [0] S1
  shapeCasts_S1_S1x1 : S1.ShapeCasts S1x1
  broadcasts_S12x1_S12x16 : S12x1.Broadcasts S12x16
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S12x16x2048.size a ≤ S12x16x4096.size a
  hwx0_0 : ∀ i : grid0.Coords, EltTy.bits .f32 = 32 ∨ (Rect.block (s := S12x16x4096) S12x16x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1.size a ≤ S1x1.size a
  hwx0_1 : ∀ i : grid0.Coords, EltTy.bits .f32 = 32 ∨ (Rect.block (s := S1x1) S1x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_v0) S12x16x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1_0) S1x1.size cc0_transform_1 reads0_1 true true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1_1) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun i => !(k0_cond1 i == 1#1) && !(k0_cond2 i == 1#1) | 2 => fun i => !(k0_cond1 i == 1#1) && !(k0_cond2 i == 1#1) | ⟨_ + 3, h⟩ => absurd h (Nat.not_lt.2 (Nat.le_add_left _ _))

class Facts : Prop extends Facts₀ where

variable [Facts]
-- ==== ReferenceIdeal.lean ====
abbrev S12x4096x16 : Shape := ⟨3, ![12, 4096, 16]⟩
abbrev S_ : Shape := ⟨0, ![]⟩
abbrev S12x4096 : Shape := ⟨2, ![12, 4096]⟩
abbrev S12x4096x1 : Shape := ⟨3, ![12, 4096, 1]⟩
abbrev S12x4096x4096 : Shape := ⟨3, ![12, 4096, 4096]⟩
abbrev S4096x4096 : Shape := ⟨2, ![4096, 4096]⟩
abbrev S12x16 : Shape := ⟨2, ![12, 16]⟩
abbrev S12 : Shape := ⟨1, ![12]⟩
abbrev S12x1 : Shape := ⟨2, ![12, 1]⟩

abbrev nBuf : Space → Nat
  | .hbm => 64
  | .vmem => 0
  | .smem => 0
  | _ => 0

abbrev bufTy : (tb : Table) → Fin (tcTables nBuf tb) → BufTy
  | .hbm, ⟨0, _⟩ => ⟨S12x4096x16, .f32⟩
  | .hbm, ⟨1, _⟩ => ⟨S_, .f32⟩
  | .hbm, ⟨2, _⟩ => ⟨S12x4096, .f32⟩
  | .hbm, ⟨3, _⟩ => ⟨S_, .f32⟩
  | .hbm, ⟨4, _⟩ => ⟨S12x4096, .f32⟩
  | .hbm, ⟨5, _⟩ => ⟨S12x4096, .f32⟩
  | .hbm, ⟨6, _⟩ => ⟨S12x4096x1, .f32⟩
  | .hbm, ⟨7, _⟩ => ⟨S12x4096x16, .f32⟩
  | .hbm, ⟨8, _⟩ => ⟨S12x4096x16, .f32⟩
  | .hbm, ⟨9, _⟩ => ⟨S12x4096x16, .f32⟩
  | .hbm, ⟨10, _⟩ => ⟨S_, .f32⟩
  | .hbm, ⟨11, _⟩ => ⟨S12x4096, .f32⟩
  | .hbm, ⟨12, _⟩ => ⟨S12x4096x1, .f32⟩
  | .hbm, ⟨13, _⟩ => ⟨S12x4096x16, .f32⟩
  | .hbm, ⟨14, _⟩ => ⟨S12x4096x16, .f32⟩
  | .hbm, ⟨15, _⟩ => ⟨S_, .f32⟩
  | .hbm, ⟨16, _⟩ => ⟨S12x4096x16, .f32⟩
  | .hbm, ⟨17, _⟩ => ⟨S12x4096x16, .f32⟩
  | .hbm, ⟨18, _⟩ => ⟨S12x4096x16, .f32⟩
  | .hbm, ⟨19, _⟩ => ⟨S12x4096x4096, .f32⟩
  | .hbm, ⟨20, _⟩ => ⟨S_, .f32⟩
  | .hbm, ⟨21, _⟩ => ⟨S4096x4096, .f32⟩
  | .hbm, ⟨22, _⟩ => ⟨S4096x4096, .i32⟩
  | .hbm, ⟨23, _⟩ => ⟨S4096x4096, .i32⟩
  | .hbm, ⟨24, _⟩ => ⟨S4096x4096, .i1⟩
  | .hbm, ⟨25, _⟩ => ⟨S_, .f32⟩
  | .hbm, ⟨26, _⟩ => ⟨S4096x4096, .f32⟩
  | .hbm, ⟨27, _⟩ => ⟨S4096x4096, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S12x16, .f32⟩
  | .hbm, ⟨37, _⟩ => ⟨S_, .f32⟩
  | .hbm, ⟨38, _⟩ => ⟨S12x16, .f32⟩
  | .hbm, ⟨39, _⟩ => ⟨S12x16, .f32⟩
  | .hbm, ⟨40, _⟩ => ⟨S_, .f32⟩
  | .hbm, ⟨41, _⟩ => ⟨S12, .f32⟩
  | .hbm, ⟨42, _⟩ => ⟨S12x1, .f32⟩
  | .hbm, ⟨43, _⟩ => ⟨S12x16, .f32⟩
  | .hbm, ⟨44, _⟩ => ⟨S12x16, .f32⟩
  | .hbm, ⟨45, _⟩ => ⟨S_, .f32⟩
  | .hbm, ⟨46, _⟩ => ⟨S12x16, .f32⟩
  | .hbm, ⟨47, _⟩ => ⟨S12x16, .f32⟩
  | .hbm, ⟨48, _⟩ => ⟨S12x16, .f32⟩
  | .hbm, ⟨49, _⟩ => ⟨S_, .f32⟩
  | .hbm, ⟨50, _⟩ => ⟨S12, .f32⟩
  | .hbm, ⟨51, _⟩ => ⟨S12, .f32⟩
  | .hbm, ⟨52, _⟩ => ⟨S_, .f32⟩
  | .hbm, ⟨53, _⟩ => ⟨S12, .f32⟩
  | .hbm, ⟨54, _⟩ => ⟨S12, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | _, _ => ⟨S12x4096x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_2 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_3 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_4 : Ref sig .tc := ⟨.hbm, 25, rfl⟩
abbrev main_v19 : Ref sig .tc := ⟨.hbm, 26, rfl⟩
abbrev main_v20 : Ref sig .tc := ⟨.hbm, 27, rfl⟩
abbrev main_cst_5 : Ref sig .tc := ⟨.hbm, 28, rfl⟩
abbrev main_v21 : Ref sig .tc := ⟨.hbm, 29, rfl⟩
abbrev main_cst_6 : Ref sig .tc := ⟨.hbm, 30, rfl⟩
abbrev main_v22 : Ref sig .tc := ⟨.hbm, 31, rfl⟩
abbrev main_v23 : Ref sig .tc := ⟨.hbm, 32, rfl⟩
abbrev main_cst_7 : Ref sig .tc := ⟨.hbm, 33, rfl⟩
abbrev main_v24 : Ref sig .tc := ⟨.hbm, 34, rfl⟩
abbrev main_cst_8 : Ref sig .tc := ⟨.hbm, 35, rfl⟩
abbrev main_v25 : Ref sig .tc := ⟨.hbm, 36, rfl⟩
abbrev main_cst_9 : Ref sig .tc := ⟨.hbm, 37, rfl⟩
abbrev main_v26 : Ref sig .tc := ⟨.hbm, 38, rfl⟩
abbrev main_v27 : Ref sig .tc := ⟨.hbm, 39, rfl⟩
abbrev main_cst_10 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_11 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_12 : Ref sig .tc := ⟨.hbm, 49, rfl⟩
abbrev main_v35 : Ref sig .tc := ⟨.hbm, 50, rfl⟩
abbrev main_v36 : Ref sig .tc := ⟨.hbm, 51, rfl⟩
abbrev main_cst_13 : Ref sig .tc := ⟨.hbm, 52, rfl⟩
abbrev main_v37 : Ref sig .tc := ⟨.hbm, 53, rfl⟩
abbrev main_v38 : Ref sig .tc := ⟨.hbm, 54, rfl⟩
abbrev main_cst_14 : Ref sig .tc := ⟨.hbm, 55, rfl⟩
abbrev main_v39 : Ref sig .tc := ⟨.hbm, 56, rfl⟩
abbrev main_cst_15 : Ref sig .tc := ⟨.hbm, 57, rfl⟩
abbrev main_v40 : Ref sig .tc := ⟨.hbm, 58, rfl⟩
abbrev main_cst_16 : Ref sig .tc := ⟨.hbm, 59, rfl⟩
abbrev main_v41 : Ref sig .tc := ⟨.hbm, 60, rfl⟩
abbrev main_v42 : Ref sig .tc := ⟨.hbm, 61, rfl⟩
abbrev main_cst_17 : Ref sig .tc := ⟨.hbm, 62, rfl⟩
abbrev main_v43 : Ref sig .tc := ⟨.hbm, 63, rfl⟩

abbrev nD : Nat := 1
abbrev τ : Topo := Topo.v7x

variable {F : FTy → Type} [FloatOps F]

class Facts₀ : Prop where
  reducesTo_S12x4096x16_S12x4096_d2 : S12x4096x16.ReducesTo [2] S12x4096
  h_S_ : 0 < S_.numel
  bcast_S_S12x4096 : S_.BroadcastsInDim S12x4096 (![] : Fin 0 → Fin S12x4096.rank)
  bcast_S12x4096_S12x4096x1_0_1 : S12x4096.BroadcastsInDim S12x4096x1 (![0, 1] : Fin 2 → Fin S12x4096x1.rank)
  bcast_S12x4096x1_S12x4096x16_0_1_2 : S12x4096x1.BroadcastsInDim S12x4096x16 (![0, 1, 2] : Fin 3 → Fin S12x4096x16.rank)
  bcast_S_S12x4096x16 : S_.BroadcastsInDim S12x4096x16 (![] : Fin 0 → Fin S12x4096x16.rank)
  reducesTo_S12x4096x4096_S4096x4096_d0 : S12x4096x4096.ReducesTo [0] S4096x4096
  bcast_S_S4096x4096 : S_.BroadcastsInDim S4096x4096 (![] : Fin 0 → Fin S4096x4096.rank)
  reducesTo_S4096x4096_S_d0_1 : S4096x4096.ReducesTo [0, 1] S_
  reducesTo_S12x4096x4096_S_d0_1_2 : S12x4096x4096.ReducesTo [0, 1, 2] S_
  reducesTo_S12x4096x16_S12x16_d1 : S12x4096x16.ReducesTo [1] S12x16
  bcast_S_S12x16 : S_.BroadcastsInDim S12x16 (![] : Fin 0 → Fin S12x16.rank)
  reducesTo_S12x16_S12_d1 : S12x16.ReducesTo [1] S12
  bcast_S12_S12x1_0 : S12.BroadcastsInDim S12x1 (![0] : Fin 1 → Fin S12x1.rank)
  bcast_S12x1_S12x16_0_1 : S12x1.BroadcastsInDim S12x16 (![0, 1] : Fin 2 → Fin S12x16.rank)
  bcast_S_S12 : S_.BroadcastsInDim S12 (![] : Fin 0 → Fin S12.rank)
  reducesTo_S12_S_d0 : S12.ReducesTo [0] S_
  dot_S12x4096x16_S12x4096x16_S12x4096x4096_2_2_1_1_0_0_wf : DotDims.WF S12x4096x16 S12x4096x16 S12x4096x4096 [2] [2] [1] [1] [0] [0]

variable [Facts₀]

def dot_S12x4096x16_S12x4096x16_S12x4096x4096_2_2_1_1_0_0 : DotDims S12x4096x16 S12x4096x16 S12x4096x4096 where
  lhsContracting := [2]
  rhsContracting := [2]
  lhsNonContracting := [1]
  rhsNonContracting := [1]
  lhsBatch := [0]
  rhsBatch := [0]
  wf := dot_S12x4096x16_S12x4096x16_S12x4096x4096_2_2_1_1_0_0_wf

class Facts : Prop extends Facts₀ where

variable [Facts]
-- ==== Proof.Spec.lean ====
import Idealize.ShloMosaic.PureOps.Ideal
import Idealize.ShloMosaic.PureOps.Ideal.Laws
import Idealize.ShloMosaic.Lib.ValueIdx

/-!
# The two routing losses as functions of the noise array

For every layer `l` and row `n` the sixteen noises of the row are turned into a probability vector
`p = softmax` (shifted by the row's maximum) and into the log terms `q = log (p + ε₁)`.

* The pairwise term is `∑_{n,m} ⟨p_n, q_m⟩ - ∑_n ⟨p_n, q_n⟩` per layer. Summed directly over all pairs
  (`pairDirect`) or, by bilinearity of the inner product, as `⟨∑_n p_n, ∑_m q_m⟩ - ∑_n ⟨p_n, q_n⟩`
  (`pairFactored`).
* The uniformity term normalises the column sums `s_d = ∑_n p_{n,d}` of a layer to a distribution and averages
  `-log (· + ε₂)`. Normalising `s` itself (`unifSums`) or the column means `s / N` (`unifMeans`) gives one
  distribution, the common factor `1/N` cancelling.

Both pairs of forms are stated here; that they agree on finite inputs is the algebra module's business.
-/

noncomputable section

namespace Cert.Loss

open Idealize.ShloMosaic Idealize.ShloMosaic.ValueIdx

/-- The word of `-∞`, the two additive guards inside the logarithms, and the scalars of the final combination. -/
abbrev ninf : EReal := Ideal.ofBits .f32 0xFF800000#32
abbrev eps1 : EReal := Ideal.ofBits .f32 0x3089705F#32
abbrev eps2 : EReal := Ideal.ofBits .f32 0x322BCC77#32
abbrev c16 : EReal := Ideal.ofBits .f32 0x41800000#32
abbrev c4096 : EReal := Ideal.ofBits .f32 0x45800000#32
abbrev c24 : EReal := Ideal.ofBits .f32 0x41C00000#32
abbrev c12 : EReal := Ideal.ofBits .f32 0x41400000#32
abbrev c1 : EReal := Ideal.ofBits .f32 0x3F800000#32
abbrev c001 : EReal := Ideal.ofBits .f32 0x3C23D70A#32

section Row

variable {D : ℕ}

/-- A row's maximum, taken from `-∞` and guarded once more against `-∞`. -/
def rowMax (r : Fin D → EReal) : EReal := max ninf ((Finset.univ : Finset (Fin D)).fold max ninf r)

/-- The shifted exponentials `exp (r_d - max r)`. -/
def rowExp (r : Fin D → EReal) (d : Fin D) : EReal := Ideal.exp (r d - rowMax r)

/-- The softmax probabilities of a row. -/
def rowP (r : Fin D → EReal) (d : Fin D) : EReal := Ideal.div (rowExp r d) (∑ k, rowExp r k)

/-- The guarded logarithms `log (p_d + ε₁)` of a row's probabilities. -/
def rowQ (r : Fin D → EReal) (d : Fin D) : EReal := Ideal.log (rowP r d + eps1)

end Row

section Whole

variable {L N D : ℕ}

/-- The pairwise term with the inner products of the column sums: `∑_l (⟨∑_n p, ∑_n q⟩ - ∑_n ⟨p_n, q_n⟩)`. -/
def pairFactored (A B : Fin L → Fin N → Fin D → EReal) : EReal :=
  ∑ l, ((∑ d, (∑ n, A l n d) * (∑ n, B l n d)) - ∑ n, ∑ d, A l n d * B l n d)

/-- The pairwise term summed over all pairs of rows, minus the diagonal pairs picked out of the layer-summed table. -/
def pairDirect (A B : Fin L → Fin N → Fin D → EReal) : EReal :=
  (∑ l, ∑ n, ∑ m, ∑ d, A l n d * B l m d)
    - ∑ n : Fin N, ∑ m : Fin N, (if n = m then ∑ l, ∑ d, A l n d * B l m d else 0)

/-- The uniformity term over the normalised column sums. -/
def unifSums (A : Fin L → Fin N → Fin D → EReal) : EReal :=
  ∑ l, Ideal.div (-(∑ d, Ideal.log (Ideal.div (∑ n, A l n d) (∑ k, ∑ n, A l n k) + eps2))) c16

/-- The uniformity term over the normalised column means. -/
def unifMeans (A : Fin L → Fin N → Fin D → EReal) : EReal :=
  ∑ l, Ideal.div (-(∑ d, Ideal.log
    (Ideal.div (Ideal.div (∑ n, A l n d) c4096) (∑ k, Ideal.div (∑ n, A l n k) c4096) + eps2))) c16

end Whole

/-- The final combination `0.01 · (1 · a₁ / 24 + a₂ / 12)` of the two terms. -/
def combine (a1 a2 : EReal) : EReal := c001 * (c1 * Ideal.div a1 c24 + Ideal.div a2 c12)

/-- The noise array's shape, and its probabilities and log terms indexed by layer, row and expert. -/
abbrev SX : Shape := ⟨3, ![12, 4096, 16]⟩

def probs (x : SX.Idx → EReal) (l : Fin 12) (n : Fin 4096) (d : Fin 16) : EReal :=
  rowP (fun k => x (ix3 l n k)) d

def logq (x : SX.Idx → EReal) (l : Fin 12) (n : Fin 4096) (d : Fin 16) : EReal :=
  rowQ (fun k => x (ix3 l n k)) d

/-- The loss in the factored form (column sums first). -/
def lossFactored (x : SX.Idx → EReal) : EReal :=
  combine (pairFactored (probs x) (logq x)) (unifSums (probs x))

/-- The loss in the direct form (all pairs; column means). -/
def lossDirect (x : SX.Idx → EReal) : EReal :=
  combine (pairDirect (probs x) (logq x)) (unifMeans (probs x))

end Cert.Loss

end
-- ==== Proof.RefSide.lean ====
import proofs.«123802_j60816736911483_2_alg».proof.Proof.Gen.ReferenceIdeal.Read
import proofs.«123802_j60816736911483_2_alg».proof.Proof.Spec
import Idealize.ShloMosaic.Lib.ValueIdx
import Idealize.ShloMosaic.PureOps.Ideal.Laws

/-!
# The reference program's result is the direct form of the loss

The reference computes, per layer l and row n, the softmax p of the sixteen noises (shifted by the row's
maximum) and q = log (p + ε₁); the table of all inner products ⟨p_n, q_m⟩; its total and the total of its diagonal,
the latter picked out of the layer-summed table by comparing the two coordinates; and the uniformity term from the
column means of p. Read stage by stage at explicit coordinates, each stage is the matching piece of the
specification, and the last stage is the direct form of the loss.
-/

noncomputable section

namespace Cert.RefSide

open Cert.ReferenceIdeal Cert.ReferenceIdeal.Gen Cert.ReferenceIdeal.Read Idealize.ShloMosaic
  Idealize.ShloMosaic.ValueIdx Cert.Loss
open scoped BigOperators

/-- The noise array. -/
abbrev X : Type := (⟨S12x4096x16, .f32⟩ : BufTy).Contents (Elt Ideal)

/-! ## Sums over index sets of rank one and three, by coordinates -/

/-- A rank-1 index set is its coordinate range … -/
def idxEquiv1 {n0 : Nat} : (⟨1, ![n0]⟩ : Shape).Idx ≃ Fin n0 where
  toFun i := i 0
  invFun a := ix1 a
  left_inv i := (eq_ix1 i).symm
  right_inv _ := rfl

/-- … so a sum over it is the sum over the coordinate. -/
theorem sum_idx1 {M : Type*} [AddCommMonoid M] {n0 : Nat} (f : (⟨1, ![n0]⟩ : Shape).Idx → M) :
    ∑ i, f i = ∑ a : Fin n0, f (ix1 a) := by
  rw [← Equiv.sum_comp (idxEquiv1 (n0 := n0)).symm f]
  rfl

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-! ## The row maximum -/

/-- The reduced index (l, n) with the expert coordinate k put back is (l, n, k). -/
theorem lift_row (h : S12x4096x16.Reduces [2] S12x4096) (l : Fin 12) (n : Fin 4096) (k : Fin (S12x4096x16.size 2)) :
    h.lift (ix2 l n) k = ix3 l n (⟨k.val, k.isLt⟩ : Fin 16) := by
  funext c; apply Fin.ext
  match c with
  | ⟨0, _⟩ => rfl
  | ⟨1, _⟩ => rfl
  | ⟨2, _⟩ => rfl

/-- The max-reduce over the experts, from -∞, is the fold of max over the row. -/
theorem v0_at (x : X) (l : Fin 12) (n : Fin 4096) :
    val_main_v0 (F := Ideal) x (ix2 l n)
      = (Finset.univ : Finset (Fin 16)).fold max ninf (fun k => x (ix3 l n k)) := by
  unfold val_main_v0
  have h : S12x4096x16.Reduces [2] S12x4096 := by decide
  refine (Host.reduce_eq_fold_single (α := Ideal .f32) FloatOps.maximumf x _ reducesTo_S12x4096x16_S12x4096_d2 h h_S_
    (ix2 l n)).trans ?_
  have hf : (x ∘ h.lift (ix2 l n)) = fun k : Fin 16 => x (ix3 l n k) :=
    funext fun k => congrArg x (lift_row h l n k)
  exact congrArg (fun f => Finset.fold max ninf f (Finset.univ : Finset (Fin 16))) hf

/-- The guarded row maximum. -/
theorem v2_at (x : X) (l : Fin 12) (n : Fin 4096) :
    val_main_v2 (F := Ideal) x (ix2 l n) = rowMax (fun k => x (ix3 l n k)) := by
  rw [val_main_v2_apply, val_main_v1_apply, val_main_cst_0_apply, v0_at]
  rfl

/-! ## Index equations: the generated index maps at explicit coordinates -/

theorem idx34 (l : Fin 12) (n : Fin 4096) (d : Fin 16) : idx_main_v3 (idx_main_v4 (ix3 l n d)) = ix2 l n :=
  funext fun a => Fin.ext (by match a with | ⟨0, _⟩ => rfl | ⟨1, _⟩ => rfl)
theorem idx89 (l : Fin 12) (n : Fin 4096) (d : Fin 16) : idx_main_v8 (idx_main_v9 (ix3 l n d)) = ix2 l n :=
  funext fun a => Fin.ext (by match a with | ⟨0, _⟩ => rfl | ⟨1, _⟩ => rfl)
theorem idx7 (l : Fin 12) (n : Fin 4096) (k : Fin 16) : idx_main_v7 (ix2 l n) k = ix3 l n k :=
  funext fun a => Fin.ext (by match a with | ⟨0, _⟩ => rfl | ⟨1, _⟩ => rfl | ⟨2, _⟩ => rfl)
theorem lidx14 (l : Fin 12) (n m : Fin 4096) (k : Fin 16) : lidx_main_v14 (ix3 l n m) k = ix3 l n k :=
  funext fun a => Fin.ext (by match a with | ⟨0, _⟩ => rfl | ⟨1, _⟩ => rfl | ⟨2, _⟩ => rfl)
theorem ridx14 (l : Fin 12) (n m : Fin 4096) (k : Fin 16) : ridx_main_v14 (ix3 l n m) k = ix3 l m k :=
  funext fun a => Fin.ext (by match a with | ⟨0, _⟩ => rfl | ⟨1, _⟩ => rfl | ⟨2, _⟩ => rfl)

/-! ## The probabilities and the log terms -/

/-- The shifted exponentials. -/
theorem v6_at (x : X) (l : Fin 12) (n : Fin 4096) (d : Fin 16) :
    val_main_v6 (F := Ideal) x (ix3 l n d) = rowExp (fun k => x (ix3 l n k)) d := by
  rw [val_main_v6_apply, val_main_v5_apply, val_main_v4_apply, val_main_v3_apply, idx34, v2_at]
  rfl

/-- Their sum over the row. -/
theorem v7_at (x : X) (l : Fin 12) (n : Fin 4096) :
    val_main_v7 (F := Ideal) x (ix2 l n) = ∑ k, rowExp (fun k => x (ix3 l n k)) k := by
  rw [val_main_v7_apply, val_main_cst_1_apply, Ideal.ofBits_def, Ideal.ofBits_zero_f32, zero_add]
  refine Finset.sum_congr rfl fun k _ => ?_
  rw [idx7, v6_at]

/-- The softmax probabilities. -/
theorem v10_at (x : X) (l : Fin 12) (n : Fin 4096) (d : Fin 16) :
    val_main_v10 (F := Ideal) x (ix3 l n d) = probs x l n d := by
  rw [val_main_v10_apply, val_main_v9_apply, val_main_v8_apply, idx89, v7_at, v6_at]
  rfl

/-- The guarded logarithms. -/
theorem v13_at (x : X) (l : Fin 12) (n : Fin 4096) (d : Fin 16) :
    val_main_v13 (F := Ideal) x (ix3 l n d) = logq x l n d := by
  rw [val_main_v13_apply, val_main_v12_apply, val_main_v11_apply, val_main_cst_2_apply, v10_at]
  rfl

/-- The table of inner products. -/
theorem v14_at (x : X) (l : Fin 12) (n m : Fin 4096) :
    val_main_v14 (F := Ideal) x (ix3 l n m) = ∑ d, probs x l n d * logq x l m d := by
  rw [val_main_v14_apply]
  refine Finset.sum_congr rfl fun k _ => ?_
  rw [lidx14, ridx14, v10_at, v13_at]

/-! ## The pairwise term -/

/-- The zero word is the extended real 0. -/
theorem zw : (FloatOps.ofBits (F := Ideal) .f32 0x00000000#32 : EReal) = 0 := Ideal.ofBits_zero_f32

theorem idx15 (n m : Fin 4096) (k : Fin 12) : idx_main_v15 (ix2 n m) k = ix3 k n m :=
  funext fun a => Fin.ext (by match a with | ⟨0, _⟩ => rfl | ⟨1, _⟩ => rfl | ⟨2, _⟩ => rfl)

/-- The table summed over the layers. -/
theorem v15_at (x : X) (n m : Fin 4096) :
    val_main_v15 (F := Ideal) x (ix2 n m) = ∑ l, ∑ d, probs x l n d * logq x l m d := by
  rw [val_main_v15_apply, val_main_cst_3_apply, zw, zero_add]
  refine Finset.sum_congr rfl fun k _ => ?_
  rw [idx15, v14_at]

/-- Two row coordinates are below 2^32, so their 32-bit words are equal exactly when they are: a select on the
    comparison of the two words is the choice on the coordinates. -/
theorem select_coord {α : Type} (n m : Fin 4096) (A B : α) :
    Scalar.select (IntOp.cmpi .eq (BitVec.ofNat 32 n.val) (BitVec.ofNat 32 m.val)) A B = if n = m then A else B := by
  by_cases h : n = m
  · subst h
    have e : IntOp.cmpi .eq (BitVec.ofNat 32 n.val) (BitVec.ofNat 32 n.val) = 1#1 := IntOp.cmpi_eq.mpr rfl
    rw [e, select_one, if_pos rfl]
  · have e : IntOp.cmpi .eq (BitVec.ofNat 32 n.val) (BitVec.ofNat 32 m.val) = 0#1 := by
      refine eq_zero_of_ne_one fun hh => h (Fin.ext ?_)
      have e2 := congrArg BitVec.toNat (IntOp.cmpi_eq.mp hh)
      rw [BitVec.toNat_ofNat, BitVec.toNat_ofNat] at e2
      have hn := n.isLt
      have hm := m.isLt
      omega
    rw [e, select_zero, if_neg h]

/-- The layer-summed table with everything off the diagonal replaced by 0. -/
theorem v20_at (x : X) (n m : Fin 4096) :
    val_main_v20 (F := Ideal) x (ix2 n m)
      = if n = m then ∑ l, ∑ d, probs x l n d * logq x l m d else 0 := by
  rw [val_main_v20_apply, val_main_v18_apply, val_main_v16_apply, val_main_v17_apply, val_main_v19_apply,
    val_main_cst_4_apply, zw, v15_at]
  exact select_coord n m _ _

/-- The total of the diagonal. -/
theorem v21_at (x : X) :
    val_main_v21 (F := Ideal) x ix0
      = ∑ n : Fin 4096, ∑ m : Fin 4096, (if n = m then ∑ l, ∑ d, probs x l n d * logq x l m d else 0) := by
  rw [val_main_v21_apply, val_main_cst_5_apply, zw, zero_add, sum_idx2]
  exact Finset.sum_congr rfl fun n _ => Finset.sum_congr rfl fun m _ => v20_at x n m

/-- The total of the whole table. -/
theorem v22_at (x : X) :
    val_main_v22 (F := Ideal) x ix0 = ∑ l, ∑ n, ∑ m, ∑ d, probs x l n d * logq x l m d := by
  rw [val_main_v22_apply, val_main_cst_6_apply, zw, zero_add, sum_idx3]
  exact Finset.sum_congr rfl fun l _ => Finset.sum_congr rfl fun n _ => Finset.sum_congr rfl fun m _ => v14_at x l n m

/-- The pairwise term, divided by 24. -/
theorem v24_at (x : X) :
    val_main_v24 (F := Ideal) x ix0 = Ideal.div (pairDirect (probs x) (logq x)) c24 := by
  rw [val_main_v24_apply, val_main_v23_apply, v22_at, v21_at, val_main_cst_7_apply]
  unfold pairDirect
  rfl

/-! ## The uniformity term -/

theorem idx25 (l : Fin 12) (d : Fin 16) (k : Fin 4096) : idx_main_v25 (ix2 l d) k = ix3 l k d :=
  funext fun a => Fin.ext (by match a with | ⟨0, _⟩ => rfl | ⟨1, _⟩ => rfl | ⟨2, _⟩ => rfl)
theorem idx28 (l : Fin 12) (k : Fin 16) : idx_main_v28 (ix1 l) k = ix2 l k :=
  funext fun a => Fin.ext (by match a with | ⟨0, _⟩ => rfl | ⟨1, _⟩ => rfl)
theorem idx2930 (l : Fin 12) (d : Fin 16) : idx_main_v29 (idx_main_v30 (ix2 l d)) = ix1 l :=
  funext fun a => Fin.ext (by match a with | ⟨0, _⟩ => rfl)
theorem idx35 (l : Fin 12) (k : Fin 16) : idx_main_v35 (ix1 l) k = ix2 l k :=
  funext fun a => Fin.ext (by match a with | ⟨0, _⟩ => rfl | ⟨1, _⟩ => rfl)

/-- The column means of a layer's probabilities. -/
theorem v27_at (x : X) (l : Fin 12) (d : Fin 16) :
    val_main_v27 (F := Ideal) x (ix2 l d) = Ideal.div (∑ n, probs x l n d) c4096 := by
  rw [val_main_v27_apply, val_main_v25_apply, val_main_cst_8_apply, zw, zero_add, val_main_v26_apply,
    val_main_cst_9_apply]
  have e : ∑ k : Fin 4096, val_main_v10 (F := Ideal) x (idx_main_v25 (ix2 l d) k) = ∑ n, probs x l n d :=
    Finset.sum_congr rfl fun k _ => by rw [idx25, v10_at]
  rw [e]
  rfl

/-- Their sum over the experts. -/
theorem v28_at (x : X) (l : Fin 12) :
    val_main_v28 (F := Ideal) x (ix1 l) = ∑ k, Ideal.div (∑ n, probs x l n k) c4096 := by
  rw [val_main_v28_apply, val_main_cst_10_apply, zw, zero_add]
  refine Finset.sum_congr rfl fun k _ => ?_
  rw [idx28, v27_at]

/-- The guarded logarithm of the normalised column mean. -/
theorem v34_at (x : X) (l : Fin 12) (d : Fin 16) :
    val_main_v34 (F := Ideal) x (ix2 l d)
      = Ideal.log (Ideal.div (Ideal.div (∑ n, probs x l n d) c4096) (∑ k, Ideal.div (∑ n, probs x l n k) c4096)
          + eps2) := by
  rw [val_main_v34_apply, val_main_v33_apply, val_main_v31_apply, val_main_v30_apply, val_main_v29_apply, idx2930,
    v28_at, v27_at, val_main_v32_apply, val_main_cst_11_apply]
  rfl

/-- A layer's averaged negative log term. -/
theorem v38_at (x : X) (l : Fin 12) :
    val_main_v38 (F := Ideal) x (ix1 l)
      = Ideal.div (-(∑ d, Ideal.log (Ideal.div (Ideal.div (∑ n, probs x l n d) c4096)
          (∑ k, Ideal.div (∑ n, probs x l n k) c4096) + eps2))) c16 := by
  rw [val_main_v38_apply, val_main_v36_apply, val_main_v35_apply, val_main_cst_12_apply, zw, zero_add,
    val_main_v37_apply, val_main_cst_13_apply]
  have e : ∑ k : Fin 16, val_main_v34 (F := Ideal) x (idx_main_v35 (ix1 l) k)
      = ∑ d, Ideal.log (Ideal.div (Ideal.div (∑ n, probs x l n d) c4096)
          (∑ k, Ideal.div (∑ n, probs x l n k) c4096) + eps2) :=
    Finset.sum_congr rfl fun k _ => by rw [idx35, v34_at]
  rw [e]
  rfl

/-- The uniformity term, divided by 12. -/
theorem v40_at (x : X) :
    val_main_v40 (F := Ideal) x ix0 = Ideal.div (unifMeans (probs x)) c12 := by
  rw [val_main_v40_apply, val_main_v39_apply, val_main_cst_14_apply, zw, zero_add, sum_idx1, val_main_cst_15_apply]
  have e : ∑ a : Fin 12, val_main_v38 (F := Ideal) x (ix1 a) = unifMeans (probs x) := by
    unfold unifMeans
    exact Finset.sum_congr rfl fun l _ => v38_at x l
  rw [e]
  rfl

/-! ## The result -/

/-- The reference's result is the loss in its direct form. -/
theorem ref_value (x : (⟨Cert.ReferenceIdeal.S12x4096x16, .f32⟩ : BufTy).Contents (Elt Ideal)) :
    Cert.ReferenceIdeal.Read.val_main_v43 (F := Ideal) x = fun _ => Cert.Loss.lossDirect x := by
  funext i
  obtain rfl : i = ix0 := eq_ix0 i
  rw [val_main_v43_apply, val_main_v42_apply, val_main_v41_apply, v24_at, v40_at, val_main_cst_16_apply,
    val_main_cst_17_apply]
  rfl

end Cert.RefSide

end
-- ==== Proof.LossAlgebra.lean ====
import proofs.«123802_j60816736911483_2_alg».proof.Proof.Spec

/-!
# The two forms of each routing loss agree on finite inputs

Over the extended reals the distributive and cancellation laws fail at the infinities, so nothing here is
proved by rearranging extended-real sums directly. Instead:

* a row of finite noises has a finite maximum, so every shifted exponential is `exp` of a real, the row's
  sum of exponentials is a positive real, every probability `p` is a positive real, and every guarded
  logarithm `q = log (p + ε₁)` is a real (`p + ε₁ > 0`);
* on arrays of reals every sum, product, difference and quotient by a nonzero real is the coercion of the
  same expression over `ℝ`, and there the two pairwise forms agree by bilinearity of the inner product
  (`⟨∑_n p_n, ∑_m q_m⟩ = ∑_{n,m} ⟨p_n, q_m⟩`, and the `n = m` mask collapses the double sum onto its
  diagonal), and the two uniformity forms agree because `(s_d / c) / (∑_k s_k / c) = s_d / ∑_k s_k`.
-/

noncomputable section

namespace Cert.Loss

open Idealize.ShloMosaic Idealize.ShloMosaic.ValueIdx

/-! ### The constants -/

/-- The word with sign 1, all-ones exponent and zero fraction is `-∞`. -/
theorem ninf_eq : ninf = ⊥ := by
  simp [Ideal.ofBits, Ideal.ieee]

/-- Exponent 139, zero fraction: `2^23 · 2^(139 - 127 - 23) = 2^12`. -/
theorem c4096_eq : c4096 = ((4096 : ℝ) : EReal) := by
  simp [Ideal.ofBits, Ideal.ieee, -EReal.coe_mul]; norm_num

/-- Sign 0, exponent 97, fraction 618591: `(2^23 + 618591) · 2^(97 - 127 - 23) = 9007199 · 2^(-53)`,
    a nonnegative real. -/
theorem eps1_nonneg : ∃ e : ℝ, 0 ≤ e ∧ eps1 = (e : EReal) := by
  refine ⟨(9007199 : ℝ) * (2 : ℝ) ^ (-53 : ℤ), by positivity, ?_⟩
  simp [Ideal.ofBits, Ideal.ieee, -EReal.coe_mul]

/-! ### Coercion out of sums, masks and quotients -/

/-- A finite sum of coerced reals is the coercion of the real sum. -/
theorem coe_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- A mask that keeps a coerced real or puts `0` is the coercion of the real mask. -/
theorem coe_ite_zero (c : Prop) [Decidable c] (x : ℝ) :
    (if c then ((x : ℝ) : EReal) else 0) = (((if c then x else 0 : ℝ)) : EReal) := by
  split_ifs <;> simp

/-- Division of a real by a nonzero real has no corner: it is the real quotient. -/
theorem div_coe_coe (x : ℝ) {y : ℝ} (hy : y ≠ 0) :
    Ideal.div (x : EReal) (y : EReal) = ((x / y : ℝ) : EReal) := by
  rw [Ideal.div_coe hy, ← EReal.coe_mul, mul_one_div]

/-! ### One row: finite noises give positive real probabilities and real log terms -/

/-- The running maximum of finitely many reals started from `⊥` is a real as soon as there is one of them:
    the first real absorbs `⊥`, and the maximum of two reals is a real. -/
theorem fold_max_real {ι : Type*} (s : Finset ι) (x : ι → ℝ) (hs : s.Nonempty) :
    ∃ M : ℝ, s.fold max (⊥ : EReal) (fun i => ((x i : ℝ) : EReal)) = (M : EReal) := by
  classical
  induction s using Finset.induction_on with
  | empty => exact absurd hs (by simp)
  | insert a s ha ih =>
    rw [Finset.fold_insert ha]
    rcases s.eq_empty_or_nonempty with rfl | hne
    · exact ⟨x a, by simp⟩
    · obtain ⟨M, hM⟩ := ih hne
      exact ⟨max (x a) M, by rw [hM]; exact (EReal.coe_strictMono.monotone.map_max).symm⟩

/-- The maximum of a nonempty row of reals is a real (the guard against `-∞` changes nothing). -/
theorem rowMax_real {D : ℕ} (x : Fin D → ℝ) (d : Fin D) :
    ∃ M : ℝ, rowMax (fun k => ((x k : ℝ) : EReal)) = (M : EReal) := by
  obtain ⟨M, hM⟩ := fold_max_real (Finset.univ : Finset (Fin D)) x ⟨d, Finset.mem_univ d⟩
  refine ⟨M, ?_⟩
  unfold rowMax
  rw [ninf_eq, hM]
  simp

/-- With a real maximum `M`, every shifted exponential is `exp (x_k - M)` of a real difference. -/
theorem rowExp_real {D : ℕ} (x : Fin D → ℝ) (d : Fin D) :
    ∃ M : ℝ, ∀ k, rowExp (fun k => ((x k : ℝ) : EReal)) k = ((Real.exp (x k - M) : ℝ) : EReal) := by
  obtain ⟨M, hM⟩ := rowMax_real x d
  refine ⟨M, fun k => ?_⟩
  unfold rowExp
  rw [hM, ← EReal.coe_sub, Ideal.exp_coe]

/-- The probabilities of a finite row are positive reals: the sum `S` of at least one positive
    exponential is a positive real, and `p_d = exp (x_d - M) / S`. -/
theorem rowP_pos {D : ℕ} (r : Fin D → EReal) (hr : ∀ d, ∃ x : ℝ, r d = (x : EReal)) (d : Fin D) :
    ∃ p : ℝ, 0 < p ∧ rowP r d = (p : EReal) := by
  choose x hx using hr
  obtain rfl : r = fun k => ((x k : ℝ) : EReal) := funext hx
  obtain ⟨M, hM⟩ := rowExp_real x d
  have hS : 0 < ∑ k, Real.exp (x k - M) :=
    Finset.sum_pos (fun k _ => Real.exp_pos _) ⟨d, Finset.mem_univ d⟩
  refine ⟨Real.exp (x d - M) * (1 / ∑ k, Real.exp (x k - M)), by positivity, ?_⟩
  unfold rowP
  rw [hM d, Finset.sum_congr rfl (fun k _ => hM k), coe_sum, Ideal.div_coe hS.ne', ← EReal.coe_mul]

/-- The guarded logarithms of a finite row are reals: `p + ε₁ > 0`, so the logarithm is the real one. -/
theorem rowQ_real {D : ℕ} (r : Fin D → EReal) (hr : ∀ d, ∃ x : ℝ, r d = (x : EReal)) (d : Fin D) :
    ∃ q : ℝ, rowQ r d = (q : EReal) := by
  obtain ⟨p, hp, hP⟩ := rowP_pos r hr d
  obtain ⟨e, he, hE⟩ := eps1_nonneg
  refine ⟨Real.log (p + e), ?_⟩
  unfold rowQ
  rw [hP, hE, ← EReal.coe_add, Ideal.log_coe, if_neg (not_le.2 (by linarith))]

/-! ### The pairwise term -/

/-- Over the reals. Per layer `∑_d (∑_n a_{n,d}) (∑_m b_{m,d}) = ∑_n ∑_m ∑_d a_{n,d} b_{m,d}` (a product of sums
    is the sum of the products; the order of summation is free), and the `n = m` mask leaves of the double sum
    over `(n, m)` exactly the diagonal `∑_n ∑_l ∑_d a_{l,n,d} b_{l,n,d}`. -/
theorem pair_real {L N D : ℕ} (a b : Fin L → Fin N → Fin D → ℝ) :
    (∑ l, ((∑ d, (∑ n, a l n d) * (∑ n, b l n d)) - ∑ n, ∑ d, a l n d * b l n d))
      = (∑ l, ∑ n, ∑ m, ∑ d, a l n d * b l m d)
        - ∑ n : Fin N, ∑ m : Fin N, (if n = m then ∑ l, ∑ d, a l n d * b l m d else 0) := by
  rw [Finset.sum_sub_distrib]
  congr 1
  · refine Finset.sum_congr rfl (fun l _ => ?_)
    simp only [Finset.sum_mul_sum]
    rw [Finset.sum_comm]
    exact Finset.sum_congr rfl (fun n _ => Finset.sum_comm)
  · simp only [Finset.sum_ite_eq, Finset.mem_univ, if_true]
    exact Finset.sum_comm

/-- On arrays of reals both forms of the pairwise term are the coercion of their real counterparts. -/
theorem pair_eq {L N D : ℕ} (A B : Fin L → Fin N → Fin D → EReal)
    (hA : ∀ l n d, ∃ p : ℝ, A l n d = (p : EReal)) (hB : ∀ l n d, ∃ q : ℝ, B l n d = (q : EReal)) :
    pairFactored A B = pairDirect A B := by
  choose a ha using hA
  choose b hb using hB
  obtain rfl : A = fun l n d => ((a l n d : ℝ) : EReal) := by funext l n d; exact ha l n d
  obtain rfl : B = fun l n d => ((b l n d : ℝ) : EReal) := by funext l n d; exact hb l n d
  unfold pairFactored pairDirect
  simp only [← EReal.coe_mul, coe_sum, ← EReal.coe_sub, coe_ite_zero]
  exact congrArg _ (pair_real a b)

/-! ### The uniformity term -/

/-- Termwise. With positive entries and at least one row every column sum `s_k` is a positive real, and so
    is their total `T` whenever there is a column; then `s_d / T = (s_d / 4096) / (T / 4096)`, every
    denominator being a nonzero real. -/
theorem unif_eq {L N D : ℕ} (A : Fin L → Fin N → Fin D → EReal)
    (hA : ∀ l n d, ∃ p : ℝ, 0 < p ∧ A l n d = (p : EReal)) (hN : 0 < N) : unifSums A = unifMeans A := by
  choose a ha0 ha using hA
  obtain rfl : A = fun l n d => ((a l n d : ℝ) : EReal) := by funext l n d; exact ha l n d
  unfold unifSums unifMeans
  refine Finset.sum_congr rfl (fun l _ => ?_)
  congr 2
  refine Finset.sum_congr rfl (fun d _ => ?_)
  congr 2
  have hs : ∀ k, 0 < ∑ n, a l n k :=
    fun k => Finset.sum_pos (fun n _ => ha0 l n k) ⟨⟨0, hN⟩, Finset.mem_univ _⟩
  have hT : 0 < ∑ k, ∑ n, a l n k := Finset.sum_pos (fun k _ => hs k) ⟨d, Finset.mem_univ d⟩
  have h4 : (4096 : ℝ) ≠ 0 := by norm_num
  have hT' : (∑ k, (∑ n, a l n k) / 4096) ≠ 0 := by
    rw [← Finset.sum_div]; exact div_ne_zero hT.ne' h4
  rw [c4096_eq]
  simp only [coe_sum, div_coe_coe _ h4]
  rw [div_coe_coe _ hT.ne', div_coe_coe _ hT', ← Finset.sum_div, div_div_div_cancel_right₀ h4]

/-! ### The loss -/

/-- On a finite noise array the probabilities are positive reals and the log terms reals, so both terms of
    the loss agree in their two forms, and with them the combined loss. -/
theorem loss_eq (x : SX.Idx → EReal) (hx : ∀ i, ∃ r : ℝ, x i = (r : EReal)) :
    lossFactored x = lossDirect x := by
  have hP : ∀ l n d, ∃ p : ℝ, 0 < p ∧ probs x l n d = (p : EReal) :=
    fun l n d => rowP_pos _ (fun _ => hx _) d
  have hQ : ∀ l n d, ∃ q : ℝ, logq x l n d = (q : EReal) :=
    fun l n d => rowQ_real _ (fun _ => hx _) d
  unfold lossFactored lossDirect
  rw [pair_eq (probs x) (logq x) (fun l n d => (hP l n d).imp fun _ h => h.2) hQ,
    unif_eq (probs x) hP (by norm_num)]

end Cert.Loss

end
-- ==== Proof.KernelPieces.lean ====
/-
# What one grid point leaves behind, as values

The kernel visits two column tiles of the transposed noise array. Three accumulators are carried from the first
tile to the second: the column sums of the probabilities, the column sums of the log terms, and the per-layer sum of
the products `p · log`. At the first tile each accumulator is reset to zero, read back, and the tile's contribution
added; at the second tile the contribution is added to what the first tile left, and the two scalar results are
formed from the updated accumulators.

Each lemma below says which value a tile leaves in one accumulator or one result cell, as the body's arithmetic
applied to the tile's block and to the accumulators' earlier contents. The stores write whole buffers at offset
zero, so a buffer's final contents are the last store's payload, and a load after a store reads that payload.
-/
import proofs.«123802_j60816736911483_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-! ## The last grid point: every accumulator is updated from what the point before left, then the two results are formed -/

theorem sB0 (c : Dev nD) (i : grid0.Coords) (a1 : Memref sig .tc .vmem S12x16x2048 .f32) (h1 : a1.IsWhole) (a2 : Memref sig .tc .vmem S1x1 .f32) (h2 : a2.IsWhole) (a3 : Memref sig .tc .vmem S1x1 .f32) (h3 : a3.IsWhole) (a4 : Memref sig .tc .vmem S12x16 .f32) (h4 : a4.IsWhole) (a5 : Memref sig .tc .vmem S12x16 .f32) (h5 : a5.IsWhole) (a6 : Memref sig .tc .vmem S12x1 .f32) (h6 : a6.IsWhole) (hc0 : ¬cond0_0 i) (hc1 : cond0_1 i)
    (x0 : Vec F S12x16x2048 .f32) (xs0 xs1 : Vec F S12x16 .f32) (xs2 : Vec F S12x1 .f32) :
    sout0_B_0 c i a1 h1 a2 h2 a3 h3 a4 h4 a5 h5 a6 h6 hc0 hc1 x0 xs0 xs1 xs2 = k0_pay11 x0 xs0 := by
  unfold sout0_B_0
  rw [View.read_writes_eq_canon _ _ _ (scover0_B_0 c i a1 h1 a2 h2 a3 h3 a4 h4 a5 h5 a6 h6 hc0 hc1 x0 xs0 xs1 xs2)]
  unfold kernelRun0_B
  dsimp only
  sl_unfold_words
  rw [View.canon_unit_zero hz2]
  simp only [View.readAt_eq_ld, h1.read_unread, h4.read_unread, h5.read_unread, h6.read_unread,
    View.ld_unit_zero (S := S12x16x2048) hz3, View.ld_unit_zero (S := S12x16) hz2, View.ld_unit_zero (S := S12x1) hz2]

theorem sB1 (c : Dev nD) (i : grid0.Coords) (a1 : Memref sig .tc .vmem S12x16x2048 .f32) (h1 : a1.IsWhole) (a2 : Memref sig .tc .vmem S1x1 .f32) (h2 : a2.IsWhole) (a3 : Memref sig .tc .vmem S1x1 .f32) (h3 : a3.IsWhole) (a4 : Memref sig .tc .vmem S12x16 .f32) (h4 : a4.IsWhole) (a5 : Memref sig .tc .vmem S12x16 .f32) (h5 : a5.IsWhole) (a6 : Memref sig .tc .vmem S12x1 .f32) (h6 : a6.IsWhole) (hc0 : ¬cond0_0 i) (hc1 : cond0_1 i)
    (x0 : Vec F S12x16x2048 .f32) (xs0 xs1 : Vec F S12x16 .f32) (xs2 : Vec F S12x1 .f32) :
    sout0_B_1 c i a1 h1 a2 h2 a3 h3 a4 h4 a5 h5 a6 h6 hc0 hc1 x0 xs0 xs1 xs2 = k0_pay12 x0 xs1 := by
  unfold sout0_B_1
  rw [View.read_writes_eq_canon _ _ _ (scover0_B_1 c i a1 h1 a2 h2 a3 h3 a4 h4 a5 h5 a6 h6 hc0 hc1 x0 xs0 xs1 xs2)]
  unfold kernelRun0_B
  dsimp only
  sl_unfold_words
  rw [View.canon_unit_zero hz2]
  simp only [View.readAt_eq_ld, h1.read_unread, h4.read_unread, h5.read_unread, h6.read_unread,
    View.ld_unit_zero (S := S12x16x2048) hz3, View.ld_unit_zero (S := S12x16) hz2, View.ld_unit_zero (S := S12x1) hz2]

theorem sB2 (c : Dev nD) (i : grid0.Coords) (a1 : Memref sig .tc .vmem S12x16x2048 .f32) (h1 : a1.IsWhole) (a2 : Memref sig .tc .vmem S1x1 .f32) (h2 : a2.IsWhole) (a3 : Memref sig .tc .vmem S1x1 .f32) (h3 : a3.IsWhole) (a4 : Memref sig .tc .vmem S12x16 .f32) (h4 : a4.IsWhole) (a5 : Memref sig .tc .vmem S12x16 .f32) (h5 : a5.IsWhole) (a6 : Memref sig .tc .vmem S12x1 .f32) (h6 : a6.IsWhole) (hc0 : ¬cond0_0 i) (hc1 : cond0_1 i)
    (x0 : Vec F S12x16x2048 .f32) (xs0 xs1 : Vec F S12x16 .f32) (xs2 : Vec F S12x1 .f32) :
    sout0_B_2 c i a1 h1 a2 h2 a3 h3 a4 h4 a5 h5 a6 h6 hc0 hc1 x0 xs0 xs1 xs2 = k0_pay1 (k0_pay13 x0) xs2 := by
  unfold sout0_B_2
  rw [View.read_writes_eq_canon _ _ _ (scover0_B_2 c i a1 h1 a2 h2 a3 h3 a4 h4 a5 h5 a6 h6 hc0 hc1 x0 xs0 xs1 xs2)]
  unfold kernelRun0_B
  dsimp only
  sl_unfold_words
  rw [View.canon_unit_zero hz2]
  simp only [View.readAt_eq_ld, h1.read_unread, h4.read_unread, h5.read_unread, h6.read_unread,
    View.ld_unit_zero (S := S12x16x2048) hz3, View.ld_unit_zero (S := S12x16) hz2, View.ld_unit_zero (S := S12x1) hz2]

theorem oB1 (c : Dev nD) (i : grid0.Coords) (a1 : Memref sig .tc .vmem S12x16x2048 .f32) (h1 : a1.IsWhole) (a2 : Memref sig .tc .vmem S1x1 .f32) (h2 : a2.IsWhole) (a3 : Memref sig .tc .vmem S1x1 .f32) (h3 : a3.IsWhole) (a4 : Memref sig .tc .vmem S12x16 .f32) (h4 : a4.IsWhole) (a5 : Memref sig .tc .vmem S12x16 .f32) (h5 : a5.IsWhole) (a6 : Memref sig .tc .vmem S12x1 .f32) (h6 : a6.IsWhole) (hc0 : ¬cond0_0 i) (hc1 : cond0_1 i)
    (x0 : Vec F S12x16x2048 .f32) (xs0 xs1 : Vec F S12x16 .f32) (xs2 : Vec F S12x1 .f32) :
    out0_B_1 c i a1 h1 a2 h2 a3 h3 a4 h4 a5 h5 a6 h6 hc0 hc1 x0 xs0 xs1 xs2
      = k0_pay2 (k0_pay11 x0 xs0) (k0_pay12 x0 xs1) (k0_pay1 (k0_pay13 x0) xs2) := by
  unfold out0_B_1
  rw [View.read_writes_eq_canon _ _ _ (cover0_B_1 c i a1 h1 a2 h2 a3 h3 a4 h4 a5 h5 a6 h6 hc0 hc1 x0 xs0 xs1 xs2)]
  unfold kernelRun0_B
  dsimp only
  sl_unfold_words
  rw [View.canon_unit_zero (S := S1x1) hz2]
  rw [View.readCov_unit_zero (S := S12x16) _ hz2, View.readCov_unit_zero (S := S12x16) _ hz2,
    View.readCov_unit_zero (S := S12x1) _ hz2]
  simp only [View.readAt_eq_ld, h1.read_unread, h4.read_unread, h5.read_unread, h6.read_unread,
    View.ld_unit_zero (S := S12x16x2048) hz3, View.ld_unit_zero (S := S12x16) hz2, View.ld_unit_zero (S := S12x1) hz2]

theorem oB2 (c : Dev nD) (i : grid0.Coords) (a1 : Memref sig .tc .vmem S12x16x2048 .f32) (h1 : a1.IsWhole) (a2 : Memref sig .tc .vmem S1x1 .f32) (h2 : a2.IsWhole) (a3 : Memref sig .tc .vmem S1x1 .f32) (h3 : a3.IsWhole) (a4 : Memref sig .tc .vmem S12x16 .f32) (h4 : a4.IsWhole) (a5 : Memref sig .tc .vmem S12x16 .f32) (h5 : a5.IsWhole) (a6 : Memref sig .tc .vmem S12x1 .f32) (h6 : a6.IsWhole) (hc0 : ¬cond0_0 i) (hc1 : cond0_1 i)
    (x0 : Vec F S12x16x2048 .f32) (xs0 xs1 : Vec F S12x16 .f32) (xs2 : Vec F S12x1 .f32) :
    out0_B_2 c i a1 h1 a2 h2 a3 h3 a4 h4 a5 h5 a6 h6 hc0 hc1 x0 xs0 xs1 xs2 = k0_pay3 (k0_pay11 x0 xs0) := by
  unfold out0_B_2
  rw [View.read_writes_eq_canon _ _ _ (cover0_B_2 c i a1 h1 a2 h2 a3 h3 a4 h4 a5 h5 a6 h6 hc0 hc1 x0 xs0 xs1 xs2)]
  unfold kernelRun0_B
  dsimp only
  sl_unfold_words
  rw [View.canon_unit_zero (S := S1x1) hz2]
  rw [View.readCov_unit_zero (S := S12x16) _ hz2]
  simp only [View.readAt_eq_ld, h1.read_unread, h4.read_unread, h5.read_unread, h6.read_unread,
    View.ld_unit_zero (S := S12x16x2048) hz3, View.ld_unit_zero (S := S12x16) hz2, View.ld_unit_zero (S := S12x1) hz2]

/-! ## The first grid point: every accumulator is reset to the zero block, read back, and updated -/

theorem sA0 (c : Dev nD) (i : grid0.Coords) (a1 : Memref sig .tc .vmem S12x16x2048 .f32) (h1 : a1.IsWhole) (a2 : Memref sig .tc .vmem S1x1 .f32) (h2 : a2.IsWhole) (a3 : Memref sig .tc .vmem S1x1 .f32) (h3 : a3.IsWhole) (a4 : Memref sig .tc .vmem S12x16 .f32) (h4 : a4.IsWhole) (a5 : Memref sig .tc .vmem S12x16 .f32) (h5 : a5.IsWhole) (a6 : Memref sig .tc .vmem S12x1 .f32) (h6 : a6.IsWhole) (hc0 : cond0_0 i) (hc1 : ¬cond0_1 i)
    (x0 : Vec F S12x16x2048 .f32) :
    sout0_A_0 c i a1 h1 a2 h2 a3 h3 a4 h4 a5 h5 a6 h6 hc0 hc1 x0 = k0_pay11 x0 (k0_pay4 (F := F)) := by
  unfold sout0_A_0
  rw [View.read_writes_eq_canon _ _ _ (scover0_A_0 c i a1 h1 a2 h2 a3 h3 a4 h4 a5 h5 a6 h6 hc0 hc1 x0)]
  unfold kernelRun0_A
  dsimp only
  sl_unfold_words
  rw [View.canon_cons_unit_zero (S := S12x16) hz2, View.readCov_unit_zero (S := S12x16) _ hz2]
  simp only [View.readAt_eq_ld, h1.read_unread, View.ld_unit_zero (S := S12x16x2048) hz3]

theorem sA1 (c : Dev nD) (i : grid0.Coords) (a1 : Memref sig .tc .vmem S12x16x2048 .f32) (h1 : a1.IsWhole) (a2 : Memref sig .tc .vmem S1x1 .f32) (h2 : a2.IsWhole) (a3 : Memref sig .tc .vmem S1x1 .f32) (h3 : a3.IsWhole) (a4 : Memref sig .tc .vmem S12x16 .f32) (h4 : a4.IsWhole) (a5 : Memref sig .tc .vmem S12x16 .f32) (h5 : a5.IsWhole) (a6 : Memref sig .tc .vmem S12x1 .f32) (h6 : a6.IsWhole) (hc0 : cond0_0 i) (hc1 : ¬cond0_1 i)
    (x0 : Vec F S12x16x2048 .f32) :
    sout0_A_1 c i a1 h1 a2 h2 a3 h3 a4 h4 a5 h5 a6 h6 hc0 hc1 x0 = k0_pay12 x0 (k0_pay5 (F := F)) := by
  unfold sout0_A_1
  rw [View.read_writes_eq_canon _ _ _ (scover0_A_1 c i a1 h1 a2 h2 a3 h3 a4 h4 a5 h5 a6 h6 hc0 hc1 x0)]
  unfold kernelRun0_A
  dsimp only
  sl_unfold_words
  rw [View.canon_cons_unit_zero (S := S12x16) hz2, View.readCov_unit_zero (S := S12x16) _ hz2]
  simp only [View.readAt_eq_ld, h1.read_unread, View.ld_unit_zero (S := S12x16x2048) hz3]

theorem sA2 (c : Dev nD) (i : grid0.Coords) (a1 : Memref sig .tc .vmem S12x16x2048 .f32) (h1 : a1.IsWhole) (a2 : Memref sig .tc .vmem S1x1 .f32) (h2 : a2.IsWhole) (a3 : Memref sig .tc .vmem S1x1 .f32) (h3 : a3.IsWhole) (a4 : Memref sig .tc .vmem S12x16 .f32) (h4 : a4.IsWhole) (a5 : Memref sig .tc .vmem S12x16 .f32) (h5 : a5.IsWhole) (a6 : Memref sig .tc .vmem S12x1 .f32) (h6 : a6.IsWhole) (hc0 : cond0_0 i) (hc1 : ¬cond0_1 i)
    (x0 : Vec F S12x16x2048 .f32) :
    sout0_A_2 c i a1 h1 a2 h2 a3 h3 a4 h4 a5 h5 a6 h6 hc0 hc1 x0 = k0_pay1 (k0_pay13 x0) (k0_pay6 (F := F)) := by
  unfold sout0_A_2
  rw [View.read_writes_eq_canon _ _ _ (scover0_A_2 c i a1 h1 a2 h2 a3 h3 a4 h4 a5 h5 a6 h6 hc0 hc1 x0)]
  unfold kernelRun0_A
  dsimp only
  sl_unfold_words
  rw [View.canon_cons_unit_zero (S := S12x1) hz2, View.readCov_unit_zero (S := S12x1) _ hz2]
  simp only [View.readAt_eq_ld, h1.read_unread, View.ld_unit_zero (S := S12x16x2048) hz3]

end Cert.KernelIdeal.Pieces
end
-- ==== Proof.KernelValue.lean ====
/-
# The kernel's result as a value

The kernel's grid has two points, one per column tile of the transposed noise array. After the second point the
three accumulators hold the first tile's contribution added to zero and then the second tile's added to that; the two
result cells are formed from them. Both result windows keep one block whose index never moves, so each is written back
exactly once, after the last point, and that one block is the whole `1 × 1` array. The program then reads the two
cells as scalars and combines them: `0.01 · (1 · r₁ / 24 + r₂ / 12)`.
-/
import proofs.«123802_j60816736911483_2_alg».proof.Proof.KernelPieces
import Idealize.ShloMosaic.Lib.StableHlo.Run

set_option maxRecDepth 16384

noncomputable section

open Idealize.ShloMosaic Idealize.ShloMosaic.TcCoe Idealize.SL.Sem
open Idealize.ShloMosaic.Pipeline (Dat)

namespace Cert.KernelIdeal.KValue

open Cert.KernelIdeal Cert.KernelIdeal.Gen Cert.KernelIdeal.Pieces

variable {F : FTy → Type} [FloatOps F]
variable (m : (ℓ : Loc nD τ sig) → Buf (Elt F) ℓ) (ρ : Dev nD → PrngReg)

/-- The block of the transposed array the kernel sees at tile `t`, as a plain vector of twelve layers, sixteen experts and
    2048 lanes. -/
def blk (c : Dev nD) (t : Fin cfg0.N) : Vec F S12x16x2048 .f32 := iblk m c 0 t

/-- The accumulators after the second tile: column sums of the probabilities, of the log terms, and the per-layer sum
    of their products. -/
def accP (c : Dev nD) : Vec F S12x16 .f32 := k0_pay11 (blk m c t0_1) (k0_pay11 (blk m c t0_0) (k0_pay4 (F := F)))
def accQ (c : Dev nD) : Vec F S12x16 .f32 := k0_pay12 (blk m c t0_1) (k0_pay12 (blk m c t0_0) (k0_pay5 (F := F)))
def accD (c : Dev nD) : Vec F S12x1 .f32 := k0_pay1 (k0_pay13 (blk m c t0_1)) (k0_pay1 (k0_pay13 (blk m c t0_0)) (k0_pay6 (F := F)))

/-- The two result cells, as contents of the two result arrays. -/
abbrev res1 (c : Dev nD) : Buf (Elt F) ((c : Thread nD τ).loc main_v1_0) := k0_pay2 (accP m c) (accQ m c) (accD m c)
abbrev res2 (c : Dev nD) : Buf (Elt F) ((c : Thread nD τ).loc main_v1_1) := k0_pay3 (accP m c)

theorem h00 : t0_0.val % 2 = 0 := rfl
theorem h01 : ¬t0_0.val % 2 = 1 := by decide
theorem h10 : ¬t0_1.val % 2 = 0 := by decide
theorem h11 : t0_1.val % 2 = 1 := rfl

/-- After the first tile each accumulator holds zero plus that tile's contribution. -/
theorem first_P (c : Dev nD) : (outsAt0 m c t0_0.val t0_0.isLt).2.2.1 = k0_pay11 (blk m c t0_0) (k0_pay4 (F := F)) := by
  rw [outsAt0_A m c t0_0 h00 h01]
  exact sA0 c (grid0.coords t0_0) (ms0_0 t0_0) (hs0_0 t0_0) (ms0_1 t0_0) (hs0_1 t0_0) (ms0_2 t0_0) (hs0_2 t0_0) scM0_0 (Memref.isWhole_whole _) scM0_1 (Memref.isWhole_whole _) scM0_2 (Memref.isWhole_whole _) ((hcond0_0 t0_0).mpr h00) (fun h => h01 ((hcond0_1 t0_0).mp h)) (iblk m c 0 t0_0)

theorem first_Q (c : Dev nD) : (outsAt0 m c t0_0.val t0_0.isLt).2.2.2.1 = k0_pay12 (blk m c t0_0) (k0_pay5 (F := F)) := by
  rw [outsAt0_A m c t0_0 h00 h01]
  exact sA1 c (grid0.coords t0_0) (ms0_0 t0_0) (hs0_0 t0_0) (ms0_1 t0_0) (hs0_1 t0_0) (ms0_2 t0_0) (hs0_2 t0_0) scM0_0 (Memref.isWhole_whole _) scM0_1 (Memref.isWhole_whole _) scM0_2 (Memref.isWhole_whole _) ((hcond0_0 t0_0).mpr h00) (fun h => h01 ((hcond0_1 t0_0).mp h)) (iblk m c 0 t0_0)

theorem first_D (c : Dev nD) : (outsAt0 m c t0_0.val t0_0.isLt).2.2.2.2 = k0_pay1 (k0_pay13 (blk m c t0_0)) (k0_pay6 (F := F)) := by
  rw [outsAt0_A m c t0_0 h00 h01]
  exact sA2 c (grid0.coords t0_0) (ms0_0 t0_0) (hs0_0 t0_0) (ms0_1 t0_0) (hs0_1 t0_0) (ms0_2 t0_0) (hs0_2 t0_0) scM0_0 (Memref.isWhole_whole _) scM0_1 (Memref.isWhole_whole _) scM0_2 (Memref.isWhole_whole _) ((hcond0_0 t0_0).mpr h00) (fun h => h01 ((hcond0_1 t0_0).mp h)) (iblk m c 0 t0_0)

/-- After the second tile the two result cells hold the values formed from the updated accumulators. -/
theorem last_res1 (c : Dev nD) : (outsAt0 m c t0_1.val t0_1.isLt).1 = res1 m c := by
  rw [outsAt0_B m c t0_1 h10 h11]
  refine (oB1 c (grid0.coords t0_1) (ms0_0 t0_1) (hs0_0 t0_1) (ms0_1 t0_1) (hs0_1 t0_1) (ms0_2 t0_1) (hs0_2 t0_1) scM0_0 (Memref.isWhole_whole _) scM0_1 (Memref.isWhole_whole _) scM0_2 (Memref.isWhole_whole _) (fun h => h10 ((hcond0_0 t0_1).mp h)) ((hcond0_1 t0_1).mpr h11) (iblk m c 0 t0_1) _ _ _).trans ?_
  show k0_pay2 (k0_pay11 _ (outsAt0 m c t0_0.val t0_0.isLt).2.2.1) (k0_pay12 _ (outsAt0 m c t0_0.val t0_0.isLt).2.2.2.1)
    (k0_pay1 _ (outsAt0 m c t0_0.val t0_0.isLt).2.2.2.2) = _
  rw [first_P, first_Q, first_D]
  rfl

theorem last_res2 (c : Dev nD) : (outsAt0 m c t0_1.val t0_1.isLt).2.1 = res2 m c := by
  rw [outsAt0_B m c t0_1 h10 h11]
  refine (oB2 c (grid0.coords t0_1) (ms0_0 t0_1) (hs0_0 t0_1) (ms0_1 t0_1) (hs0_1 t0_1) (ms0_2 t0_1) (hs0_2 t0_1) scM0_0 (Memref.isWhole_whole _) scM0_1 (Memref.isWhole_whole _) scM0_2 (Memref.isWhole_whole _) (fun h => h10 ((hcond0_0 t0_1).mp h)) ((hcond0_1 t0_1).mpr h11) (iblk m c 0 t0_1) (outsAt0 m c (t0_1.val - 1) (Nat.lt_of_le_of_lt (Nat.sub_le _ _) t0_1.isLt)).2.2.1 (outsAt0 m c (t0_1.val - 1) (Nat.lt_of_le_of_lt (Nat.sub_le _ _) t0_1.isLt)).2.2.2.1 (outsAt0 m c (t0_1.val - 1) (Nat.lt_of_le_of_lt (Nat.sub_le _ _) t0_1.isLt)).2.2.2.2).trans ?_
  show k0_pay3 (k0_pay11 _ (outsAt0 m c t0_0.val t0_0.isLt).2.2.1) = _
  rw [first_P]
  rfl

/-- Result window 1 is written back once, after the last point, and that block read through zero offsets is the
    whole `1 × 1` array. -/
theorem flushed1_eq (c : Dev nD) (t : Fin cfg0.N) (hf : (cfg0.win 1).flush t = true) :
    (dats m 0 c).flushed 1 t = ((cfg0.win 1).blk t).view.read (Elt F) (res1 m c) := by
  have hN : cfg0.N = 2 := N_0
  have h1 : t.val = 1 := by have := (flush0_1 t).mp hf; have := t.isLt; omega
  obtain rfl : t = t0_1 := Fin.ext h1
  show (cfg0.win 1).cut (grid0.coords t0_1) ((dats m 0 c).after 1 t0_1) = _
  rw [after0_1, last_res1]
  have hz' : (fun a => win0_1.index t0_1 a * main_v1_0.ty.shape.size a) = fun _ => 0 := funext fun a => by fin_cases a <;> decide
  exact (Memref.read_access_unit_zero (Elt F) main_v1_0 hz' (fun a => by rw [congrFun hz' a]; simp) (res1 m c)).symm

/-- So the array ends holding the cell formed after the last point. -/
theorem final1 (c : Dev nD) : (dats m 0 c).arrAt 1 cfg0.N = res1 m c :=
  (dats m 0 c).arrAt_eq_of_cover 1 (res1 m c) (flushed1_eq m c) fun i =>
    ⟨t0_1, (flush0_1 t0_1).mpr rfl, by
      show i ∈ ((View.whole main_v1_0).slice (win0_1.rect t0_1)).set
      rw [View.set_slice_whole, Rect.mem_set_unit]
      intro a
      have h0 : (i 0 : Nat) < 1 := (i 0).isLt
      have h1 : (i 1 : Nat) < 1 := (i 1).isLt
      match a with
      | ⟨0, _⟩ => show win0_1.index t0_1 0 * win0_1.size 0 ≤ (i 0 : Nat) ∧ (i 0 : Nat) < win0_1.index t0_1 0 * win0_1.size 0 + win0_1.xsize (grid0.coords t0_1) 0
                  rw [show win0_1.index t0_1 0 * win0_1.size 0 = 0 from by decide +kernel, show win0_1.xsize (grid0.coords t0_1) 0 = 1 from by decide +kernel]; omega
      | ⟨1, _⟩ => show win0_1.index t0_1 1 * win0_1.size 1 ≤ (i 1 : Nat) ∧ (i 1 : Nat) < win0_1.index t0_1 1 * win0_1.size 1 + win0_1.xsize (grid0.coords t0_1) 1
                  rw [show win0_1.index t0_1 1 * win0_1.size 1 = 0 from by decide +kernel, show win0_1.xsize (grid0.coords t0_1) 1 = 1 from by decide +kernel]; omega⟩

/-- Result window 2 is written back once, after the last point, and that block read through zero offsets is the
    whole `1 × 1` array. -/
theorem flushed2_eq (c : Dev nD) (t : Fin cfg0.N) (hf : (cfg0.win 2).flush t = true) :
    (dats m 0 c).flushed 2 t = ((cfg0.win 2).blk t).view.read (Elt F) (res2 m c) := by
  have hN : cfg0.N = 2 := N_0
  have h1 : t.val = 1 := by have := (flush0_2 t).mp hf; have := t.isLt; omega
  obtain rfl : t = t0_1 := Fin.ext h1
  show (cfg0.win 2).cut (grid0.coords t0_1) ((dats m 0 c).after 2 t0_1) = _
  rw [after0_2, last_res2]
  have hz' : (fun a => win0_2.index t0_1 a * main_v1_1.ty.shape.size a) = fun _ => 0 := funext fun a => by fin_cases a <;> decide
  exact (Memref.read_access_unit_zero (Elt F) main_v1_1 hz' (fun a => by rw [congrFun hz' a]; simp) (res2 m c)).symm

/-- So the array ends holding the cell formed after the last point. -/
theorem final2 (c : Dev nD) : (dats m 0 c).arrAt 2 cfg0.N = res2 m c :=
  (dats m 0 c).arrAt_eq_of_cover 2 (res2 m c) (flushed2_eq m c) fun i =>
    ⟨t0_1, (flush0_2 t0_1).mpr rfl, by
      show i ∈ ((View.whole main_v1_1).slice (win0_2.rect t0_1)).set
      rw [View.set_slice_whole, Rect.mem_set_unit]
      intro a
      have h0 : (i 0 : Nat) < 1 := (i 0).isLt
      have h1 : (i 1 : Nat) < 1 := (i 1).isLt
      match a with
      | ⟨0, _⟩ => show win0_2.index t0_1 0 * win0_2.size 0 ≤ (i 0 : Nat) ∧ (i 0 : Nat) < win0_2.index t0_1 0 * win0_2.size 0 + win0_2.xsize (grid0.coords t0_1) 0
                  rw [show win0_2.index t0_1 0 * win0_2.size 0 = 0 from by decide +kernel, show win0_2.xsize (grid0.coords t0_1) 0 = 1 from by decide +kernel]; omega
      | ⟨1, _⟩ => show win0_2.index t0_1 1 * win0_2.size 1 ≤ (i 1 : Nat) ∧ (i 1 : Nat) < win0_2.index t0_1 1 * win0_2.size 1 + win0_2.xsize (grid0.coords t0_1) 1
                  rw [show win0_2.index t0_1 1 * win0_2.size 1 = 0 from by decide +kernel, show win0_2.xsize (grid0.coords t0_1) 1 = 1 from by decide +kernel]; omega⟩

/-- The scalar combination the program applies to the two result cells: each read as a scalar, the first divided by
    24 and scaled by 1, the second divided by 12, the sum scaled by 0.01. -/
def combineCells (o1 o2 : Vec F S1x1 .f32) : (⟨S_, .f32⟩ : BufTy).Contents (Elt F) :=
  mulf (constant (F := F) S_ .f32 0x3C23D70A#32)
    (addf (mulf (constant (F := F) S_ .f32 0x3F800000#32)
        (Host.divf (shapeCast S_ o1 shapeCasts_S1x1_S_) (constant (F := F) S_ .f32 0x41C00000#32)))
      (Host.divf (shapeCast S_ o2 shapeCasts_S1x1_S_) (constant (F := F) S_ .f32 0x41400000#32)))

/-- The lines after the region compute that combination of the two result arrays. -/
theorem tail_eq (c : Dev nD) :
    Pipeline.afterTail₀ cfgs (dats m) 0 (V0 m) [hostOps1] c main_v8 = combineCells (res1 m c) (res2 m c) := by
  unfold Pipeline.afterTail₀
  show StableHlo.after hostOps1 _ (Proc.devRef .tc main_v8) = _
  after_results
  have e1 : Pipeline.withArrays (cfgs 0).spec c (V0 m c) (fun w => (dats m 0 c).arrAt w (cfgs 0).N)
      (Proc.devRef .tc main_v1_0) = res1 m c :=
    (Pipeline.withArrays_arr spec0 launch0.win.arr_inj c _ _ 1).trans (final1 m c)
  have e2 : Pipeline.withArrays (cfgs 0).spec c (V0 m c) (fun w => (dats m 0 c).arrAt w (cfgs 0).N)
      (Proc.devRef .tc main_v1_1) = res2 m c :=
    (Pipeline.withArrays_arr spec0 launch0.win.arr_inj c _ _ 2).trans (final2 m c)
  rw [e1, e2]
  rfl

/-- The run, read: the result at the combination of the two cells, the argument unchanged. -/
theorem run : θ_run defs (onTc (τ := τ) (main (F := F))) ⟨m, fun _ => 0, ρ⟩ fun r => ∀ c : Dev nD,
      r.2.mem ((c : Thread nD τ).loc main_v8) = combineCells (res1 m c) (res2 m c)
      ∧ r.2.mem ((c : Thread nD τ).loc main_arg0) = m ((c : Thread nD τ).loc main_arg0) :=
  (θ_run defs _ _).mono (fun _ h c =>
      ⟨((h c).2 main_v8 (Pipeline.mem_restRefs_of main_v8 (by decide) (by decide))).trans (tail_eq m c),
       ((h c).2 main_arg0 (Pipeline.mem_restRefs_of main_arg0 (by decide) (by decide))).trans (W_main_arg0 m (dats m) c)⟩)
    (run_main m ρ)

end Cert.KernelIdeal.KValue
end
-- ==== Proof.KernelPayloads.lean ====
import proofs.«123802_j60816736911483_2_alg».proof.Proof.Gen.KernelIdeal.Skeleton
import proofs.«123802_j60816736911483_2_alg».proof.Proof.Spec
import Idealize.ShloMosaic.Lib.ValueIdx
import Idealize.ShloMosaic.Lib.ValueLayout
import Idealize.ShloMosaic.Lib.Pipeline.Value
import Idealize.ShloMosaic.PureOps.Ideal.Laws

/-!
# The kernel's payloads read at an index, at the ideal values

Each payload of the body is one pure term over the values read before it. Read at an index given by its
coordinates it is ordinary arithmetic on the extended reals: the pointwise operations read through to the
elements; a one-axis sum is the `Fin`-indexed sum over that axis's coordinates; a one-axis maximum the fold of
`max` over them; and the keepdims layout steps (`[a] → [a, 1]`, `[a, 1] → [a, b]`, `[a, c] → [a, 1, c]`,
`[a, 1, c] → [a, b, c]`) read the operand at the same coordinates with the unit axis at `0`.

* The zero splats are `0`; the carried diagonal is the sum of its two operands.
* The per-row softmax along axis 1 of a `[12, 16, 2048]` block is `rowP` of the row `k ↦ v (l, k, j)`, its
  guarded logarithm `rowQ` of that row; the accumulated tables add their lane sums, and the diagonal block is
  `∑_j ∑_d p · q`.
* The two final reductions are the pairwise term `∑_l (⟨s_p, s_q⟩ - diag_l)` and the uniformity term over the
  normalised column sums.
-/

noncomputable section

namespace Cert.KernelIdeal.Payloads

open Cert.KernelIdeal Cert.KernelIdeal.Gen Cert.Loss Idealize.ShloMosaic Idealize.ShloMosaic.ValueIdx

/-! ### The keepdims layout operations read at an index -/

section Layout
variable {α : Type}

/-- An `[a]` array cast to `[a, 1]` reads, at `(i, u)`, the operand at `i`: both indices have row-major
    position `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(i, j)`, the operand's one column at row `i`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- An `[a, c]` array cast to `[a, 1, c]` reads, at `(i, u, j)`, the operand at `(i, j)`: both indices have
    row-major position `i * c + j`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (j : Fin c) :
    shapeCast ⟨3, ![a, 1, c]⟩ x h (ix3 i u j) = x (ix2 i j) :=
  shapeCast_apply x h _ _ (by
    have hu : u.val = 0 := by omega
    rw [Shape.rowMajor_val_three, Shape.rowMajor_val_two]
    show i.val * c + j.val = (i.val * 1 + u.val) * c + j.val
    rw [hu, Nat.mul_one, Nat.add_zero])

/-- An `[a, 1, c]` array broadcast to `[a, b, c]` reads, at `(i, k, j)`, the operand at `(i, 0, j)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (k : Fin b) (j : Fin c) :
    broadcastTo ⟨3, ![a, b, c]⟩ v h (ix3 i k j) = v (ix3 i (0 : Fin 1) j) := by
  refine broadcastTo_apply v h (ix3 i k j) (ix3 i (0 : Fin 1) j) fun ax => ?_
  match ax with
  | ⟨0, _⟩ =>
    show i.val = if a = 1 then 0 else i.val
    split
    · have := i.isLt; omega
    · rfl
  | ⟨1, _⟩ => rfl
  | ⟨2, _⟩ =>
    show j.val = if c = 1 then 0 else j.val
    split
    · have := j.isLt; omega
    · rfl

end Layout

/-! ### The index a one-axis reduction inserts, by coordinates -/

/-- Reducing `[a, b]` along axis 1: over the result index `i` the source index with coordinate `k` is `(i, k)`. -/
theorem lift_ab_axis1 {a b : ℕ} (h : (⟨2, ![a, b]⟩ : Shape).Reduces [1] ⟨1, ![a]⟩) (i : Fin a) (k : Fin b) :
    h.lift (ix1 i) k = ix2 i k := by
  funext c
  match c with
  | ⟨0, _⟩ => exact Fin.ext rfl
  | ⟨1, _⟩ => exact Fin.ext rfl

/-- Reducing `[a, b]` along axis 0: over the result index `j` the source index with coordinate `k` is `(k, j)`. -/
theorem lift_ab_axis0 {a b : ℕ} (h : (⟨2, ![a, b]⟩ : Shape).Reduces [0] ⟨1, ![b]⟩) (j : Fin b) (k : Fin a) :
    h.lift (ix1 j) k = ix2 k j := by
  funext c
  match c with
  | ⟨0, _⟩ => exact Fin.ext rfl
  | ⟨1, _⟩ => exact Fin.ext rfl

/-- Reducing `[a, b, c]` along axis 1: over `(i, j)` the source index with coordinate `k` is `(i, k, j)`. -/
theorem lift_abc_axis1 {a b c : ℕ} (h : (⟨3, ![a, b, c]⟩ : Shape).Reduces [1] ⟨2, ![a, c]⟩)
    (i : Fin a) (j : Fin c) (k : Fin b) : h.lift (ix2 i j) k = ix3 i k j := by
  funext x
  match x with
  | ⟨0, _⟩ => exact Fin.ext rfl
  | ⟨1, _⟩ => exact Fin.ext rfl
  | ⟨2, _⟩ => exact Fin.ext rfl

/-- Reducing `[a, b, c]` along axis 2: over `(i, j)` the source index with coordinate `k` is `(i, j, k)`. -/
theorem lift_abc_axis2 {a b c : ℕ} (h : (⟨3, ![a, b, c]⟩ : Shape).Reduces [2] ⟨2, ![a, b]⟩)
    (i : Fin a) (j : Fin b) (k : Fin c) : h.lift (ix2 i j) k = ix3 i j k := by
  funext x
  match x with
  | ⟨0, _⟩ => exact Fin.ext rfl
  | ⟨1, _⟩ => exact Fin.ext rfl
  | ⟨2, _⟩ => exact Fin.ext rfl

/-! ### One-axis sums read at explicit coordinates -/

/-- The sum along axis 1 of an `[a, b]` vector, at `i`: `∑ k, src (i, k)`. -/
theorem sum_axis1_ab {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (i : Fin a) :
    multiReduction .add [1] ⟨1, ![a]⟩ src 0x00000000#32 h hφ hacc (ix1 i) = ∑ k : Fin b, src (ix2 i k) :=
  (Ideal.multiReduction_add_single src _ h hφ hacc (ix1 i)).trans
    (Finset.sum_congr rfl fun k _ => congrArg src (lift_ab_axis1 h i k))

/-- The sum along axis 0 of an `[a, b]` vector, at `j`: `∑ k, src (k, j)`. -/
theorem sum_axis0_ab {a b : ℕ} (src : FVec Ideal ⟨2, ![a, b]⟩ .f32)
    (h : (⟨2, ![a, b]⟩ : Shape).Reduces [0] ⟨1, ![b]⟩) (hφ : FKind.Formats .f32)
    (hacc : (0x00000000#32 : BitVec 32) = FKind.add.neutral .f32 hφ) (j : Fin b) :
    multiReduction .add [0] ⟨1, ![b]⟩ src 0x00000000#32 h hφ hacc (ix1 j) = ∑ k : Fin a, src (ix2 k j) :=
  (Ideal.multiReduction_add_single src _ h hφ hacc (ix1 j)).trans
    (Finset.sum_congr rfl fun k _ => congrArg src (lift_ab_axis0 h j k))

/-- The sum along axis 1 of an `[a, b, c]` vector, at `(i, j)`: `∑ k, src (i, k, j)`. -/
theorem sum_axis1_abc {a b c : ℕ} (src : FVec Ideal ⟨3, ![a, b, c]⟩ .f32)
    (h : (⟨3, ![a, b, c]⟩ : Shape).Reduces [1] ⟨2, ![a, c]⟩) (hφ : FKind.Formats .f32)
    (hacc : (0x00000000#32 : BitVec 32) = FKind.add.neutral .f32 hφ) (i : Fin a) (j : Fin c) :
    multiReduction .add [1] ⟨2, ![a, c]⟩ src 0x00000000#32 h hφ hacc (ix2 i j) = ∑ k : Fin b, src (ix3 i k j) :=
  (Ideal.multiReduction_add_single src _ h hφ hacc (ix2 i j)).trans
    (Finset.sum_congr rfl fun k _ => congrArg src (lift_abc_axis1 h i j k))

/-- The sum along axis 2 of an `[a, b, c]` vector, at `(i, j)`: `∑ k, src (i, j, k)`. -/
theorem sum_axis2_abc {a b c : ℕ} (src : FVec Ideal ⟨3, ![a, b, c]⟩ .f32)
    (h : (⟨3, ![a, b, c]⟩ : Shape).Reduces [2] ⟨2, ![a, b]⟩) (hφ : FKind.Formats .f32)
    (hacc : (0x00000000#32 : BitVec 32) = FKind.add.neutral .f32 hφ) (i : Fin a) (j : Fin b) :
    multiReduction .add [2] ⟨2, ![a, b]⟩ src 0x00000000#32 h hφ hacc (ix2 i j) = ∑ k : Fin c, src (ix3 i j k) :=
  (Ideal.multiReduction_add_single src _ h hφ hacc (ix2 i j)).trans
    (Finset.sum_congr rfl fun k _ => congrArg src (lift_abc_axis2 h i j k))

/-! ### The zero splats, the carried sum, and the two final reductions -/

/-- A splat of the zero word is `0` everywhere. -/
theorem pay4_apply (i : S12x16.Idx) : k0_pay4 (F := Ideal) i = 0 := by
  unfold k0_pay4
  rw [shapeCast_self]
  exact Ideal.ofBits_zero_f32

theorem pay5_apply (i : S12x16.Idx) : k0_pay5 (F := Ideal) i = 0 := by
  unfold k0_pay5
  rw [shapeCast_self]
  exact Ideal.ofBits_zero_f32

theorem pay6_apply (i : S12x1.Idx) : k0_pay6 (F := Ideal) i = 0 := by
  unfold k0_pay6
  rw [shapeCast_self]
  exact Ideal.ofBits_zero_f32

/-- The carried diagonal: what was stored plus the block's term. -/
theorem pay1_apply (a : FVec Ideal S12x1 .f32) (b : Vec Ideal S12x1 .f32) (l : Fin 12) :
    k0_pay1 (F := Ideal) a b (ix2 l 0) = b (ix2 l 0) + a (ix2 l 0) := by
  unfold k0_pay1
  rw [shapeCast_self]
  rfl

/-- The pairwise term: per layer the inner product of the two tables' rows minus the carried diagonal, summed
    over the layers. -/
theorem pay2_apply (sp sq : Vec Ideal S12x16 .f32) (dg : Vec Ideal S12x1 .f32) (i : S1x1.Idx) :
    k0_pay2 (F := Ideal) sp sq dg i
      = ∑ l : Fin 12, ((∑ d : Fin 16, sp (ix2 l d) * sq (ix2 l d)) - dg (ix2 l 0)) := by
  obtain ⟨p, q, rfl⟩ : ∃ (p : Fin 1) (q : Fin 1), i = ix2 p q := ⟨i 0, i 1, eq_ix2 i⟩
  obtain rfl : p = 0 := Subsingleton.elim _ _
  obtain rfl : q = 0 := Subsingleton.elim _ _
  unfold k0_pay2
  refine (shapeCast_a_a1_apply _ _ 0 0).trans ?_
  refine (sum_axis0_ab _ _ _ _ 0).trans ?_
  refine Finset.sum_congr rfl fun l _ => ?_
  refine congrArg (· - dg (ix2 l 0)) ?_
  refine (shapeCast_a_a1_apply _ _ l 0).trans ?_
  exact sum_axis1_ab _ _ _ _ l

/-- The kernel negates by subtracting from the zero splat: `0 - t = -t`. -/
theorem zero_word_sub (t : EReal) : (Ideal.ofBits .f32 0x00000000#32 : EReal) - t = -t := by
  rw [Ideal.ofBits_zero_f32, sub_eq_add_neg, zero_add]

/-- The uniformity term: per layer the row of column sums is normalised by its total, `-∑ log (· + ε₂)` is
    divided by 16, and the layers are summed. -/
theorem pay3_apply (sp : Vec Ideal S12x16 .f32) (i : S1x1.Idx) :
    k0_pay3 (F := Ideal) sp i
      = ∑ l : Fin 12, Ideal.div (-(∑ d : Fin 16,
          Ideal.log (Ideal.div (sp (ix2 l d)) (∑ k : Fin 16, sp (ix2 l k)) + eps2))) c16 := by
  obtain ⟨p, q, rfl⟩ : ∃ (p : Fin 1) (q : Fin 1), i = ix2 p q := ⟨i 0, i 1, eq_ix2 i⟩
  obtain rfl : p = 0 := Subsingleton.elim _ _
  obtain rfl : q = 0 := Subsingleton.elim _ _
  unfold k0_pay3
  refine (shapeCast_a_a1_apply _ _ 0 0).trans ?_
  refine (sum_axis0_ab _ _ _ _ 0).trans ?_
  refine Finset.sum_congr rfl fun l _ => ?_
  refine congrArg (fun t => Ideal.div t c16) ?_
  rw [subf_apply, broadcast_apply]
  refine (zero_word_sub _).trans ?_
  refine congrArg Neg.neg ?_
  refine (shapeCast_a_a1_apply _ _ l 0).trans ?_
  refine (sum_axis1_ab _ _ _ _ l).trans ?_
  refine Finset.sum_congr rfl fun d _ => ?_
  refine congrArg (fun t => Ideal.log (Ideal.div (sp (ix2 l d)) t + eps2)) ?_
  refine (broadcastTo_a1_ab_apply _ _ l d).trans ?_
  refine (shapeCast_a_a1_apply _ _ l 0).trans ?_
  exact sum_axis1_ab _ _ _ _ l

/-! ### The softmax block and what is accumulated from it -/

/-- The softmax of the block along axis 1, at `(l, d, j)`. Writing `r k = v (l, k, j)` for the row: the maximum
    taken from `-∞` and guarded once more is `rowMax r`; every shifted exponential of the row is
    `rowExp r k = exp (r k - rowMax r)`; their sum along axis 1, broadcast back over the axis, is
    `∑ k, rowExp r k`; and the quotient is `rowP r d`. -/
theorem pay9_apply (v : Vec Ideal S12x16x2048 .f32) (l : Fin 12) (d : Fin 16) (j : Fin 2048) :
    k0_pay9 (F := Ideal) v (ix3 l d j) = rowP (fun k => v (ix3 l k j)) d := by
  unfold k0_pay9
  rw [shapeCast_self]
  generalize hE : (exp _ : FVec Ideal S12x16x2048 .f32) = E
  have key : ∀ k : Fin 16, E (ix3 l k j) = rowExp (fun k => v (ix3 l k j)) k := fun k => by
    rw [← hE]
    refine congrArg Ideal.exp ?_
    rw [subf_apply]
    refine congrArg (fun t => v (ix3 l k j) - t) ?_
    refine (broadcastTo_a1c_abc_apply _ _ l k j).trans ?_
    refine (shapeCast_ac_a1c_apply _ _ l 0 j).trans ?_
    rw [maximumf_apply, broadcast_apply]
    refine congrArg (max ninf) ?_
    refine (Ideal.multiReduction_maximumf_single _ _ _ _ _ (ix2 l j)).trans ?_
    refine congrArg (fun f => (Finset.univ : Finset (Fin 16)).fold max ninf f) ?_
    funext k'
    exact congrArg v (lift_abc_axis1 _ l j k')
  rw [divf_apply, key d]
  refine congrArg (Ideal.div (rowExp (fun k => v (ix3 l k j)) d)) ?_
  refine (broadcastTo_a1c_abc_apply _ _ l d j).trans ?_
  refine (shapeCast_ac_a1c_apply _ _ l 0 j).trans ?_
  refine (sum_axis1_abc _ _ _ _ l j).trans ?_
  exact Finset.sum_congr rfl fun k _ => key k

/-- The guarded logarithm of the softmax: `log (p + ε₁)` at the same row. -/
theorem pay10_apply (v : Vec Ideal S12x16x2048 .f32) (l : Fin 12) (d : Fin 16) (j : Fin 2048) :
    k0_pay10 (F := Ideal) v (ix3 l d j) = rowQ (fun k => v (ix3 l k j)) d := by
  unfold k0_pay10
  exact congrArg (fun t => Ideal.log (t + eps1)) (pay9_apply v l d j)

/-- The probability table accumulates the block's sum over the lanes: `acc (l, d) + ∑ j, p (l, d, j)`. -/
theorem pay11_apply (v : Vec Ideal S12x16x2048 .f32) (acc : Vec Ideal S12x16 .f32) (l : Fin 12) (d : Fin 16) :
    k0_pay11 (F := Ideal) v acc (ix2 l d)
      = acc (ix2 l d) + ∑ j : Fin 2048, rowP (fun k => v (ix3 l k j)) d := by
  unfold k0_pay11
  rw [shapeCast_self, addf_apply]
  refine congrArg (fun t => acc (ix2 l d) + t) ?_
  refine (sum_axis2_abc _ _ _ _ l d).trans ?_
  exact Finset.sum_congr rfl fun j _ => pay9_apply v l d j

/-- The log table accumulates the block's sum over the lanes likewise: `acc (l, d) + ∑ j, q (l, d, j)`. -/
theorem pay12_apply (v : Vec Ideal S12x16x2048 .f32) (acc : Vec Ideal S12x16 .f32) (l : Fin 12) (d : Fin 16) :
    k0_pay12 (F := Ideal) v acc (ix2 l d)
      = acc (ix2 l d) + ∑ j : Fin 2048, rowQ (fun k => v (ix3 l k j)) d := by
  unfold k0_pay12
  rw [shapeCast_self, addf_apply]
  refine congrArg (fun t => acc (ix2 l d) + t) ?_
  refine (sum_axis2_abc _ _ _ _ l d).trans ?_
  exact Finset.sum_congr rfl fun j _ => pay10_apply v l d j

/-- The block's diagonal term: the products `p · q` summed over the experts, then over the lanes. -/
theorem pay13_apply (v : Vec Ideal S12x16x2048 .f32) (l : Fin 12) :
    k0_pay13 (F := Ideal) v (ix2 l 0)
      = ∑ j : Fin 2048, ∑ d : Fin 16,
          rowP (fun k => v (ix3 l k j)) d * rowQ (fun k => v (ix3 l k j)) d := by
  unfold k0_pay13
  refine (shapeCast_a_a1_apply _ _ l 0).trans ?_
  refine (sum_axis1_ab _ _ _ _ l).trans ?_
  refine Finset.sum_congr rfl fun j _ => ?_
  refine (sum_axis1_abc _ _ _ _ l j).trans ?_
  refine Finset.sum_congr rfl fun d _ => ?_
  rw [mulf_apply, pay9_apply, pay10_apply]

end Cert.KernelIdeal.Payloads

end
-- ==== Proof.KernelInput.lean ====
import proofs.«123802_j60816736911483_2_alg».proof.Pre_finite_inputs
import proofs.«123802_j60816736911483_2_alg».proof.Proof.Gen.KernelIdeal.Frame
import Idealize.ShloMosaic.Lib.StableHlo.Run
import Idealize.ShloMosaic.Lib.ValueLayout
import Idealize.ShloMosaic.Lib.ReduceAll
import Idealize.ShloMosaic.Lib.Pipeline.Value
import Idealize.ShloMosaic.Lib.ValueIdx
import Idealize.ShloMosaic.PureOps.Ideal.Laws

/-!
# The kernel's input: every entry is a real number, and the staged block is a slab of the array

The precondition compares the absolute value of every entry with +∞ and takes the conjunction over the whole
array: an extended real whose absolute value is below +∞ is a real number.

The kernel works on the array with its last two axes exchanged, [12, 16, 4096], cut along the row axis into two
slabs of 2048 rows: entry (l, d, j) of slab t is the noise of layer l, row 2048·t + j, expert d.
-/

noncomputable section

namespace Cert.KernelIdeal.KInput

open Idealize.ShloMosaic

/-! ## Finiteness from the precondition -/

/-- A one-bit word made from a Boolean is 1 only for true. -/
theorem bool_of_ofBool_one {b : Bool} (h : BitVec.ofBool b = 1#1) : b = true := by
  cases b
  · exact absurd h (by decide)
  · rfl

/-- An extended real whose absolute value max a (-a) is below +∞ is a real number: both infinities have absolute
    value +∞. -/
theorem real_of_abs_lt_top (a : EReal) (h : max a (-a) < ⊤) : ∃ r : ℝ, a = (r : EReal) := by
  induction a using EReal.rec with
  | bot => exact absurd h (by simp)
  | coe r => exact ⟨r, rfl⟩
  | top => exact absurd h (by simp)

/-- The word of +∞. -/
theorem inf_word : Ideal.ofBits .f32 0x7F800000#32 = (⊤ : EReal) := by simp [Ideal.ofBits, Ideal.ieee]

/-- Under the precondition every entry of the array is a real number. -/
theorem finite_of_pre [Cert.Pre_finite_inputs.Facts] (x : FVec Ideal Cert.Pre_finite_inputs.S12x4096x16 .f32)
    (h : Cert.Pre_finite_inputs.fn (F := Ideal) x = fun _ => 1#1) : ∀ i, ∃ r : ℝ, x i = (r : EReal) := by
  intro i
  have h0 := congrFun h ValueIdx.ix0
  dsimp only [Cert.Pre_finite_inputs.fn] at h0
  haveI : Subsingleton Cert.Pre_finite_inputs.S_.Idx := ⟨fun a b => funext fun d => d.elim0⟩
  have hi := Host.reduce_andi_all _ _ _ _ _ h0 i
  rw [ValueIdx.cmpf_apply, broadcastInDim_apply _ _ _ i (fun a => a.elim0) (fun a => a.elim0)] at hi
  have hlt : max (x i) (-(x i)) < (⊤ : EReal) := by
    have hb := bool_of_ofBool_one hi
    rw [← inf_word]
    exact of_decide_eq_true hb
  exact real_of_abs_lt_top (x i) hlt

/-! ## The staged block at an index -/

section Block

open Cert.KernelIdeal Cert.KernelIdeal.Gen Idealize.ShloMosaic.TcCoe Idealize.SL.Sem Idealize.ShloMosaic.ValueIdx

variable {F : FTy → Type} [FloatOps F] (m : (ℓ : Loc nD τ sig) → Buf (Elt F) ℓ)

/-- The array the window reads is the noise array with its last two axes exchanged. -/
theorem V_main_v0 (c : Dev nD) :
    (V m c main_v0 : S12x16x4096.Idx → Elt F .f32)
      = transpose S12x16x4096 [0, 2, 1] (m ((c : Thread nD τ).loc main_arg0))
          transposes_S12x4096x16_S12x16x4096_0_2_1 := by
  show StableHlo.after hostOps0 (fun b => m (c, b)) (Proc.devRef .tc main_v0) = _
  after_results

/-- The slab at grid point t starts at layer 0, expert 0 and row block t. -/
theorem index_facts : ∀ t : Fin grid0.N,
    win0_0.index t 0 = 0 ∧ win0_0.index t 1 = 0 ∧ win0_0.index t 2 = t.val := by decide +kernel

/-- Entry (l, d, j) of the slab at point t is the noise of layer l, row 2048·t + j, expert d. -/
theorem iblk_apply (c : Dev nD) (t : Fin cfg0.N) (l : Fin 12) (d : Fin 16) (j : Fin 2048) :
    (iblk m c 0 t : Vec F S12x16x2048 .f32) (ValueIdx.ix3 l d j)
      = m ((c : Thread nD τ).loc main_arg0) (ValueIdx.ix3 l (⟨2048 * t.val + j.val, by have := t.isLt; have hN : cfg0.N = 2 := N_0; omega⟩ : Fin 4096) d) := by
  have hi := index_facts t
  unfold iblk
  rw [View.read_apply]
  show V m c main_v0 _ = _
  rw [V_main_v0]
  refine Eq.trans (congrArg _ ?_) (transpose_ix3_021_apply (m ((c : Thread nD τ).loc main_arg0))
    transposes_S12x4096x16_S12x16x4096_0_2_1 l d
    (⟨2048 * t.val + j.val, by have := t.isLt; have hN : cfg0.N = 2 := N_0; omega⟩ : Fin 4096))
  funext a
  apply Fin.ext
  match a with
  | ⟨0, _⟩ => show win0_0.index t 0 * 12 + 1 * l.val = l.val; rw [hi.1]; omega
  | ⟨1, _⟩ => show win0_0.index t 1 * 16 + 1 * d.val = d.val; rw [hi.2.1]; omega
  | ⟨2, _⟩ => show win0_0.index t 2 * 2048 + 1 * j.val = 2048 * t.val + j.val; rw [hi.2.2]; omega

end Block

end Cert.KernelIdeal.KInput

end
-- ==== Proof.KernelLoss.lean ====
/-
# The kernel's result is the factored form of the loss

At the exact (extended-real) reading the block the kernel sees at tile `t` holds, at layer `l`, expert `d` and lane
`j`, the noise of row `2048 · t + j`. Hence the probabilities and log terms the body forms along the expert axis of
the block are those of that row, each accumulator after the second tile is a sum over all 4096 rows (the first tile's
2048 rows, then the second's), and the two result cells are the pairwise term with the column sums multiplied first and
the uniformity term over the normalised column sums. The scalar combination of the two cells is then the loss in its
factored form.
-/
import proofs.«123802_j60816736911483_2_alg».proof.Proof.KernelValue
import proofs.«123802_j60816736911483_2_alg».proof.Proof.KernelPayloads
import proofs.«123802_j60816736911483_2_alg».proof.Proof.KernelInput
import proofs.«123802_j60816736911483_2_alg».proof.Proof.Spec

noncomputable section

open Idealize.ShloMosaic Idealize.ShloMosaic.TcCoe Idealize.SL.Sem Idealize.ShloMosaic.ValueIdx

namespace Cert.KernelIdeal.KLoss

open Cert.KernelIdeal Cert.KernelIdeal.Gen Cert.KernelIdeal.KValue Cert.KernelIdeal.Payloads Cert.KernelIdeal.KInput Cert.Loss

variable (m : (ℓ : Loc nD τ sig) → Buf (Elt Ideal) ℓ)

/-- The noise array as launched. -/
abbrev xin (c : Dev nD) : SX.Idx → EReal := m ((c : Thread nD τ).loc main_arg0)

/-- Row `2048 · t + j` of the noise array: lane `j` of tile `t`. -/
abbrev tileRow (t : Fin cfg0.N) (j : Fin 2048) : Fin 4096 :=
  ⟨2048 * t.val + j.val, by have := t.isLt; have hN : cfg0.N = 2 := N_0; omega⟩

/-- A lane's column of the block at tile `t` is a row of the noise array. -/
theorem col_eq_row (c : Dev nD) (t : Fin cfg0.N) (l : Fin 12) (j : Fin 2048) :
    (fun k : Fin 16 => blk m c t (ix3 l k j)) = fun k => xin m c (ix3 l (tileRow t j) k) :=
  funext fun k => iblk_apply m c t l k j

theorem rowP_tile (c : Dev nD) (t : Fin cfg0.N) (l : Fin 12) (d : Fin 16) (j : Fin 2048) :
    rowP (fun k : Fin 16 => blk m c t (ix3 l k j)) d = probs (xin m c) l (tileRow t j) d := by
  rw [col_eq_row]; rfl

theorem rowQ_tile (c : Dev nD) (t : Fin cfg0.N) (l : Fin 12) (d : Fin 16) (j : Fin 2048) :
    rowQ (fun k : Fin 16 => blk m c t (ix3 l k j)) d = logq (xin m c) l (tileRow t j) d := by
  rw [col_eq_row]; rfl

/-- A sum over the 4096 rows is the sum over the first tile's rows plus the sum over the second tile's. -/
theorem sum_rows (f : Fin 4096 → EReal) :
    ∑ n, f n = (∑ j : Fin 2048, f (tileRow t0_0 j)) + ∑ j : Fin 2048, f (tileRow t0_1 j) := by
  have e := Fin.sum_univ_add (M := EReal) (a := 2048) (b := 2048) f
  have h0 : ∀ j : Fin 2048, (Fin.castAdd 2048 j : Fin 4096) = tileRow t0_0 j := fun j => Fin.ext (by
    show j.val = 2048 * t0_0.val + j.val
    rw [show t0_0.val = 0 from rfl]; omega)
  have h1 : ∀ j : Fin 2048, (Fin.natAdd 2048 j : Fin 4096) = tileRow t0_1 j := fun j => Fin.ext (by
    show 2048 + j.val = 2048 * t0_1.val + j.val
    rw [show t0_1.val = 1 from rfl])
  refine e.trans ?_
  rw [Finset.sum_congr rfl fun j _ => congrArg f (h0 j), Finset.sum_congr rfl fun j _ => congrArg f (h1 j)]

/-- The three accumulators after the second tile, read at an index. -/
theorem accP_apply (c : Dev nD) (l : Fin 12) (d : Fin 16) :
    accP m c (ix2 l d) = ∑ n, probs (xin m c) l n d := by
  have h0 : k0_pay11 (blk m c t0_0) (k0_pay4 (F := Ideal)) (ix2 l d) = ∑ j : Fin 2048, probs (xin m c) l (tileRow t0_0 j) d :=
    (pay11_apply (blk m c t0_0) (k0_pay4 (F := Ideal)) l d).trans
      ((congrArg (· + ∑ j : Fin 2048, rowP (fun k : Fin 16 => blk m c t0_0 (ix3 l k j)) d) (pay4_apply (ix2 l d))).trans
        ((zero_add _).trans (Finset.sum_congr rfl fun j _ => rowP_tile m c t0_0 l d j)))
  have h1 : ∑ j : Fin 2048, rowP (fun k : Fin 16 => blk m c t0_1 (ix3 l k j)) d = ∑ j : Fin 2048, probs (xin m c) l (tileRow t0_1 j) d :=
    Finset.sum_congr rfl fun j _ => rowP_tile m c t0_1 l d j
  exact (pay11_apply (blk m c t0_1) (k0_pay11 (blk m c t0_0) (k0_pay4 (F := Ideal))) l d).trans
    ((congrArg₂ (· + ·) h0 h1).trans (sum_rows fun n => probs (xin m c) l n d).symm)

theorem accQ_apply (c : Dev nD) (l : Fin 12) (d : Fin 16) :
    accQ m c (ix2 l d) = ∑ n, logq (xin m c) l n d := by
  have h0 : k0_pay12 (blk m c t0_0) (k0_pay5 (F := Ideal)) (ix2 l d) = ∑ j : Fin 2048, logq (xin m c) l (tileRow t0_0 j) d :=
    (pay12_apply (blk m c t0_0) (k0_pay5 (F := Ideal)) l d).trans
      ((congrArg (· + ∑ j : Fin 2048, rowQ (fun k : Fin 16 => blk m c t0_0 (ix3 l k j)) d) (pay5_apply (ix2 l d))).trans
        ((zero_add _).trans (Finset.sum_congr rfl fun j _ => rowQ_tile m c t0_0 l d j)))
  have h1 : ∑ j : Fin 2048, rowQ (fun k : Fin 16 => blk m c t0_1 (ix3 l k j)) d = ∑ j : Fin 2048, logq (xin m c) l (tileRow t0_1 j) d :=
    Finset.sum_congr rfl fun j _ => rowQ_tile m c t0_1 l d j
  exact (pay12_apply (blk m c t0_1) (k0_pay12 (blk m c t0_0) (k0_pay5 (F := Ideal))) l d).trans
    ((congrArg₂ (· + ·) h0 h1).trans (sum_rows fun n => logq (xin m c) l n d).symm)

theorem accD_apply (c : Dev nD) (l : Fin 12) :
    accD m c (ix2 l 0) = ∑ n, ∑ d, probs (xin m c) l n d * logq (xin m c) l n d := by
  have ht : ∀ t : Fin cfg0.N, k0_pay13 (F := Ideal) (blk m c t) (ix2 l 0)
      = ∑ j : Fin 2048, ∑ d : Fin 16, probs (xin m c) l (tileRow t j) d * logq (xin m c) l (tileRow t j) d := fun t =>
    (pay13_apply (blk m c t) l).trans (Finset.sum_congr rfl fun j _ => Finset.sum_congr rfl fun d _ =>
      congrArg₂ (· * ·) (rowP_tile m c t l d j) (rowQ_tile m c t l d j))
  have h0 : k0_pay1 (F := Ideal) (k0_pay13 (blk m c t0_0)) (k0_pay6 (F := Ideal)) (ix2 l 0)
      = ∑ j : Fin 2048, ∑ d : Fin 16, probs (xin m c) l (tileRow t0_0 j) d * logq (xin m c) l (tileRow t0_0 j) d :=
    (pay1_apply (k0_pay13 (blk m c t0_0)) (k0_pay6 (F := Ideal)) l).trans
      ((congrArg₂ (· + ·) (pay6_apply (ix2 l 0)) (ht t0_0)).trans (zero_add _))
  exact (pay1_apply (k0_pay13 (blk m c t0_1)) (k0_pay1 (k0_pay13 (blk m c t0_0)) (k0_pay6 (F := Ideal))) l).trans
    ((congrArg₂ (· + ·) h0 (ht t0_1)).trans
      (sum_rows fun n => ∑ d, probs (xin m c) l n d * logq (xin m c) l n d).symm)

/-- The two result cells are the pairwise term in its factored form and the uniformity term over the column sums. -/
theorem res1_apply (c : Dev nD) (i : S1x1.Idx) :
    res1 m c i = pairFactored (probs (xin m c)) (logq (xin m c)) := by
  show k0_pay2 (F := Ideal) (accP m c) (accQ m c) (accD m c) i = _
  rw [pay2_apply]
  unfold pairFactored
  exact Finset.sum_congr rfl fun l _ => by
    rw [accD_apply]
    congr 1
    exact Finset.sum_congr rfl fun d _ => by rw [accP_apply, accQ_apply]

theorem res2_apply (c : Dev nD) (i : S1x1.Idx) :
    res2 m c i = unifSums (probs (xin m c)) := by
  show k0_pay3 (F := Ideal) (accP m c) i = _
  rw [pay3_apply]
  unfold unifSums
  simp only [accP_apply]

/-- The kernel's result: the loss in its factored form, at the one index of a scalar. -/
theorem kernel_value (c : Dev nD) :
    combineCells (F := Ideal) (res1 m c) (res2 m c) = fun _ => lossFactored (xin m c) := by
  funext i
  show c001 * (c1 * Ideal.div (res1 m c _) c24 + Ideal.div (res2 m c _) c12) = _
  rw [res1_apply, res2_apply]
  rfl

end Cert.KernelIdeal.KLoss
end
-- ==== Proof.lean ====
/- The kernel computes two routing losses of a noise array `x` of twelve layers, 4096 rows and sixteen experts, and
   combines them as `0.01 · (1 · a₁ / 24 + a₂ / 12)`. Per row, `p` is the softmax of the sixteen noises and
   `q = log (p + ε₁)`.

   * `a₁` is, per layer, the sum of the inner products `⟨p_n, q_m⟩` over all pairs of distinct rows. The reference
     builds the whole table of inner products, sums it, and subtracts the diagonal; the kernel uses bilinearity,
     `∑_{n,m} ⟨p_n, q_m⟩ = ⟨∑_n p_n, ∑_m q_m⟩`, and accumulates only the two column sums and the diagonal, tile by tile.
   * `a₂` averages `-log (· + ε₂)` of the layer's column sums normalised to a distribution. The reference normalises
     the column means `s / 4096`, the kernel the column sums `s`: the common factor cancels.

   Over the extended reals neither law holds at the infinities, so both go through finiteness: the precondition makes
   every noise a real number, hence every `p` a positive real (a sum of sixteen exponentials is positive) and every
   `q` a real (`p + ε₁ > 0`), and for real numbers the two identities are plain algebra (Proof/LossAlgebra.lean).
   Proof/RefSide.lean reads the reference's result stage by stage down to the direct form of the loss;
   Proof/KernelPieces.lean, Proof/KernelValue.lean and Proof/KernelLoss.lean read the kernel's two grid points, its single
   write-back and the scalar lines after it down to the factored form (the payloads at an index in
   Proof/KernelPayloads.lean, the tile's block as rows of `x` and finiteness from the precondition in
   Proof/KernelInput.lean); Proof/Spec.lean states both forms. The idealization rewrote nothing, so `preserves` is
   trivial, and the three frames are the generated runs. -/
import proofs.«123802_j60816736911483_2_alg».proof.Defs
import proofs.«123802_j60816736911483_2_alg».proof.Proof.Gen.Kernel
import proofs.«123802_j60816736911483_2_alg».proof.Proof.Gen.Kernel.Skeleton
import proofs.«123802_j60816736911483_2_alg».proof.Proof.Gen.Kernel.Launch
import proofs.«123802_j60816736911483_2_alg».proof.Proof.Gen.Kernel.Points
import proofs.«123802_j60816736911483_2_alg».proof.Proof.Gen.Kernel.Frame
import proofs.«123802_j60816736911483_2_alg».proof.Proof.Gen.KernelIdeal
import proofs.«123802_j60816736911483_2_alg».proof.Proof.Gen.KernelIdeal.Skeleton
import proofs.«123802_j60816736911483_2_alg».proof.Proof.Gen.KernelIdeal.Launch
import proofs.«123802_j60816736911483_2_alg».proof.Proof.Gen.KernelIdeal.Points
import proofs.«123802_j60816736911483_2_alg».proof.Proof.Gen.KernelIdeal.Frame
import proofs.«123802_j60816736911483_2_alg».proof.Proof.Gen.ReferenceIdeal
import proofs.«123802_j60816736911483_2_alg».proof.Proof.Gen.Pre_finite_inputs
import proofs.«123802_j60816736911483_2_alg».proof.Proof.Gen.ReferenceIdeal.Run
import proofs.«123802_j60816736911483_2_alg».proof.Proof.Gen.ReferenceIdeal.Read
import proofs.«123802_j60816736911483_2_alg».proof.Proof.RefSide
import proofs.«123802_j60816736911483_2_alg».proof.Proof.LossAlgebra
import proofs.«123802_j60816736911483_2_alg».proof.Proof.KernelLoss
import Idealize.ShloMosaic.Adequacy
import Idealize.ShloMosaic.Init

noncomputable section

namespace Cert.Proof

open Idealize.ShloMosaic Idealize.SL.Sem

/-- The word-level kernel and its idealization run to the end without a fault and leave the noise array as launched. -/
theorem frame_k : Cert.frame_Kernel := fun m ρ _ => Cert.Kernel.Gen.frame m ρ
theorem frame_ki : Cert.frame_KernelIdeal := fun m ρ _ => Cert.KernelIdeal.Gen.frame m ρ

/-- So does the reference: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the loss of the launched noise array: the kernel in the factored form, the reference in the
    direct form, equal because the precondition makes every noise a real number. -/
theorem algebraic : Cert.algebraic_KernelIdeal_ReferenceIdeal := by
  intro m ρ m' ρ' hpre hagree
  refine ⟨fun c _ => Cert.Loss.lossFactored (m ((c.tc : Thread Cert.KernelIdeal.nD Cert.KernelIdeal.τ).loc Cert.KernelIdeal.main_arg0)), ?_, ?_⟩
  · exact (θ_run Cert.KernelIdeal.defs _ _).mono
      (fun _ h c => ⟨(h c).1.trans (Cert.KernelIdeal.KLoss.kernel_value m c), (h c).2⟩)
      (Cert.KernelIdeal.KValue.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v43_eq, Cert.RefSide.ref_value, hagree c]
    funext _
    exact (Cert.Loss.loss_eq _ (Cert.KernelIdeal.KInput.finite_of_pre _ (hpre c))).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
